-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64 .f32) (main_arg9 : FVec F S64x64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S5000x64 : Shape := ⟨2, ![5000, 64]⟩
abbrev S1250000x64 : Shape := ⟨2, ![1250000, 64]⟩
abbrev S100000x1 : Shape := ⟨2, ![100000, 1]⟩
abbrev S1x64 : Shape := ⟨2, ![1, 64]⟩
abbrev S5000x1 : Shape := ⟨2, ![5000, 1]⟩

abbrev nBuf : Space → Nat
  | .hbm => 129
  | .vmem => 52
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64, .f32⟩
  | 14 => ⟨S1x1250000, .i32⟩
  | 15 => ⟨S1250000, .i32⟩
  | 16 => ⟨S1x1250000, .i32⟩
  | 17 => ⟨S1250000, .i32⟩
  | 18 => ⟨S_, .f32⟩
  | 19 => ⟨S1250000, .f32⟩
  | 20 => ⟨S_, .f32⟩
  | 21 => ⟨S100000, .f32⟩
  | 22 => ⟨S1250000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1250000, .i32⟩
  | 30 => ⟨S1250000, .i1⟩
  | 31 => ⟨S_, .i32⟩
  | 32 => ⟨S1250000, .i32⟩
  | 33 => ⟨S1250000, .i32⟩
  | 34 => ⟨S1250000, .i32⟩
  | 35 => ⟨S1250000x1, .i32⟩
  | 36 => ⟨S1250000, .f32⟩
  | 37 => ⟨S_, .i32⟩
  | 38 => ⟨S1250000, .i32⟩
  | 39 => ⟨S1250000, .i1⟩
  | 40 => ⟨S_, .i32⟩
  | 41 => ⟨S1250000, .i32⟩
  | 42 => ⟨S1250000, .i32⟩
  | 43 => ⟨S1250000, .i32⟩
  | 44 => ⟨S1250000x1, .i32⟩
  | 45 => ⟨S1250000, .f32⟩
  | 46 => ⟨S1250000, .f32⟩
  | 47 => ⟨S100000, .f32⟩
  | 48 => ⟨S_, .f32⟩
  | 49 => ⟨S100000, .f32⟩
  | 50 => ⟨S100000, .f32⟩
  | 51 => ⟨S100000x64, .f32⟩
  | 52 => ⟨S_, .i32⟩
  | 53 => ⟨S1250000, .i32⟩
  | 54 => ⟨S1250000, .i1⟩
  | 55 => ⟨S_, .i32⟩
  | 56 => ⟨S1250000, .i32⟩
  | 57 => ⟨S1250000, .i32⟩
  | 58 => ⟨S1250000, .i32⟩
  | 59 => ⟨S1250000x1, .i32⟩
  | 60 => ⟨S1250000x64, .f32⟩
  | 61 => ⟨S1250000x1, .f32⟩
  | 62 => ⟨S1250000x64, .f32⟩
  | 63 => ⟨S1250000x64, .f32⟩
  | 64 => ⟨S_, .f32⟩
  | 65 => ⟨S100000x64, .f32⟩
  | 66 => ⟨S1250000x1, .i32⟩
  | 67 => ⟨S100000x64, .f32⟩
  | 68 => ⟨S100000x1, .f32⟩
  | 69 => ⟨S1x64, .f32⟩
  | 70 => ⟨S100000x64, .f32⟩
  | 71 => ⟨S_, .i32⟩
  | 72 => ⟨S1250000, .i32⟩
  | 73 => ⟨S1250000, .i1⟩
  | 74 => ⟨S_, .i32⟩
  | 75 => ⟨S1250000, .i32⟩
  | 76 => ⟨S1250000, .i32⟩
  | 77 => ⟨S1250000, .i32⟩
  | 78 => ⟨S1250000x1, .i32⟩
  | 79 => ⟨S1250000x64, .f32⟩
  | 80 => ⟨S_, .f32⟩
  | 81 => ⟨S100000x64, .f32⟩
  | 82 => ⟨S1250000x1, .i32⟩
  | 83 => ⟨S100000x64, .f32⟩
  | 84 => ⟨S100000x1, .f32⟩
  | 85 => ⟨S100000x64, .f32⟩
  | 86 => ⟨S100000x64, .f32⟩
  | 87 => ⟨S1x64, .f32⟩
  | 88 => ⟨S100000x64, .f32⟩
  | 89 => ⟨S_, .i32⟩
  | 90 => ⟨S1250000, .i32⟩
  | 91 => ⟨S1250000, .i1⟩
  | 92 => ⟨S_, .i32⟩
  | 93 => ⟨S1250000, .i32⟩
  | 94 => ⟨S1250000, .i32⟩
  | 95 => ⟨S1250000, .i32⟩
  | 96 => ⟨S1250000x1, .i32⟩
  | 97 => ⟨S1250000x64, .f32⟩
  | 98 => ⟨S_, .f32⟩
  | 99 => ⟨S100000x64, .f32⟩
  | 100 => ⟨S1250000x1, .i32⟩
  | 101 => ⟨S100000x64, .f32⟩
  | 102 => ⟨S100000x1, .f32⟩
  | 103 => ⟨S100000x64, .f32⟩
  | 104 => ⟨S100000x64, .f32⟩
  | 105 => ⟨S1x64, .f32⟩
  | 106 => ⟨S100000x64, .f32⟩
  | 107 => ⟨S1x64, .f32⟩
  | 108 => ⟨S100000x64, .f32⟩
  | 109 => ⟨S100000x64, .f32⟩
  | 110 => ⟨S_, .i32⟩
  | 111 => ⟨S1250000, .i32⟩
  | 112 => ⟨S1250000, .i1⟩
  | 113 => ⟨S_, .i32⟩
  | 114 => ⟨S1250000, .i32⟩
  | 115 => ⟨S1250000, .i32⟩
  | 116 => ⟨S1250000, .i32⟩
  | 117 => ⟨S1250000x1, .i32⟩
  | 118 => ⟨S1250000x64, .f32⟩
  | 119 => ⟨S1250000x1, .f32⟩
  | 120 => ⟨S1250000x64, .f32⟩
  | 121 => ⟨S1250000x64, .f32⟩
  | 122 => ⟨S_, .f32⟩
  | 123 => ⟨S100000x64, .f32⟩
  | 124 => ⟨S1250000x1, .i32⟩
  | 125 => ⟨S100000x64, .f32⟩
  | 126 => ⟨S100000x1, .f32⟩
  | 127 => ⟨S1x64, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x1, .f32⟩
  | .local _ .vmem, ⟨48, _⟩ => ⟨S5000x1, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_15 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc6_sem4_0 : DmaSem sig := 50
abbrev cc6_sem4_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v75) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v92) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v94) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩

abbrev nBuf : Space → Nat
  | .hbm => 203
  | .vmem => 0
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64, .f32⟩
  | 14 => ⟨S1x1250000, .i32⟩
  | 15 => ⟨S1250000, .i32⟩
  | 16 => ⟨S1x1250000, .i32⟩
  | 17 => ⟨S1250000, .i32⟩
  | 18 => ⟨S100000x64, .f32⟩
  | 19 => ⟨S_, .f32⟩
  | 20 => ⟨S1250000, .f32⟩
  | 21 => ⟨S_, .f32⟩
  | 22 => ⟨S100000, .f32⟩
  | 23 => ⟨S1250000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1250000, .i32⟩
  | 31 => ⟨S1250000, .i1⟩
  | 32 => ⟨S_, .i32⟩
  | 33 => ⟨S1250000, .i32⟩
  | 34 => ⟨S1250000, .i32⟩
  | 35 => ⟨S1250000, .i32⟩
  | 36 => ⟨S1250000x1, .i32⟩
  | 37 => ⟨S1250000, .f32⟩
  | 38 => ⟨S_, .i32⟩
  | 39 => ⟨S1250000, .i32⟩
  | 40 => ⟨S1250000, .i1⟩
  | 41 => ⟨S_, .i32⟩
  | 42 => ⟨S1250000, .i32⟩
  | 43 => ⟨S1250000, .i32⟩
  | 44 => ⟨S1250000, .i32⟩
  | 45 => ⟨S1250000x1, .i32⟩
  | 46 => ⟨S1250000, .f32⟩
  | 47 => ⟨S1250000, .f32⟩
  | 48 => ⟨S_, .i32⟩
  | 49 => ⟨S1250000, .i32⟩
  | 50 => ⟨S1250000, .i1⟩
  | 51 => ⟨S_, .i32⟩
  | 52 => ⟨S1250000, .i32⟩
  | 53 => ⟨S1250000, .i32⟩
  | 54 => ⟨S1250000, .i32⟩
  | 55 => ⟨S1250000x1, .i32⟩
  | 56 => ⟨S1250000x64, .f32⟩
  | 57 => ⟨S1250000x1, .f32⟩
  | 58 => ⟨S1250000x64, .f32⟩
  | 59 => ⟨S1250000x64, .f32⟩
  | 60 => ⟨S_, .f32⟩
  | 61 => ⟨S100000x64, .f32⟩
  | 62 => ⟨S1250000x1, .i32⟩
  | 63 => ⟨S100000x64, .f32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .f32⟩
  | 76 => ⟨S1250000, .f32⟩
  | 77 => ⟨S_, .f32⟩
  | 78 => ⟨S100000, .f32⟩
  | 79 => ⟨S1250000x1, .i32⟩
  | 80 => ⟨S100000, .f32⟩
  | 81 => ⟨S_, .i32⟩
  | 82 => ⟨S1250000, .i32⟩
  | 83 => ⟨S1250000, .i1⟩
  | 84 => ⟨S_, .i32⟩
  | 85 => ⟨S1250000, .i32⟩
  | 86 => ⟨S1250000, .i32⟩
  | 87 => ⟨S1250000, .i32⟩
  | 88 => ⟨S1250000x1, .i32⟩
  | 89 => ⟨S1250000x64, .f32⟩
  | 90 => ⟨S_, .f32⟩
  | 91 => ⟨S100000x64, .f32⟩
  | 92 => ⟨S1250000x1, .i32⟩
  | 93 => ⟨S100000x64, .f32⟩
  | 94 => ⟨S_, .f32⟩
  | 95 => ⟨S100000, .f32⟩
  | 96 => ⟨S100000, .f32⟩
  | 97 => ⟨S100000x1, .f32⟩
  | 98 => ⟨S100000x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S_, .f32⟩
  | 111 => ⟨S1250000, .f32⟩
  | 112 => ⟨S_, .f32⟩
  | 113 => ⟨S100000, .f32⟩
  | 114 => ⟨S1250000x1, .i32⟩
  | 115 => ⟨S100000, .f32⟩
  | 116 => ⟨S_, .i32⟩
  | 117 => ⟨S1250000, .i32⟩
  | 118 => ⟨S1250000, .i1⟩
  | 119 => ⟨S_, .i32⟩
  | 120 => ⟨S1250000, .i32⟩
  | 121 => ⟨S1250000, .i32⟩
  | 122 => ⟨S1250000, .i32⟩
  | 123 => ⟨S1250000x1, .i32⟩
  | 124 => ⟨S1250000x64, .f32⟩
  | 125 => ⟨S_, .f32⟩
  | 126 => ⟨S100000x64, .f32⟩
  | 127 => ⟨S1250000x1, .i32⟩
  | _ => ⟨S100000x64, .f32⟩

abbrev hbmTy0_1 (i : Nat) : BufTy := match i % 128 with
  | 0 => ⟨S100000x64, .f32⟩
  | 1 => ⟨S_, .f32⟩
  | 2 => ⟨S100000, .f32⟩
  | 3 => ⟨S100000, .f32⟩
  | 4 => ⟨S100000x1, .f32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S_, .f32⟩
  | 23 => ⟨S1250000, .f32⟩
  | 24 => ⟨S_, .f32⟩
  | 25 => ⟨S100000, .f32⟩
  | 26 => ⟨S1250000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1250000, .i32⟩
  | 34 => ⟨S1250000, .i1⟩
  | 35 => ⟨S_, .i32⟩
  | 36 => ⟨S1250000, .i32⟩
  | 37 => ⟨S1250000, .i32⟩
  | 38 => ⟨S1250000, .i32⟩
  | 39 => ⟨S1250000x1, .i32⟩
  | 40 => ⟨S1250000, .f32⟩
  | 41 => ⟨S_, .i32⟩
  | 42 => ⟨S1250000, .i32⟩
  | 43 => ⟨S1250000, .i1⟩
  | 44 => ⟨S_, .i32⟩
  | 45 => ⟨S1250000, .i32⟩
  | 46 => ⟨S1250000, .i32⟩
  | 47 => ⟨S1250000, .i32⟩
  | 48 => ⟨S1250000x1, .i32⟩
  | 49 => ⟨S1250000, .f32⟩
  | 50 => ⟨S1250000, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1250000x64, .f32⟩
  | 60 => ⟨S1250000x1, .f32⟩
  | 61 => ⟨S1250000x64, .f32⟩
  | 62 => ⟨S1250000x64, .f32⟩
  | 63 => ⟨S_, .f32⟩
  | 64 => ⟨S100000x64, .f32⟩
  | 65 => ⟨S1250000x1, .i32⟩
  | 66 => ⟨S100000x64, .f32⟩
  | 67 => ⟨S100000, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call1_cst : Ref sig .tc := ⟨.hbm, 107, rfl⟩
abbrev main_call1_v0 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_16 : Ref sig .tc := ⟨.hbm, 116, rfl⟩
abbrev main_v80 : Ref sig .tc := ⟨.hbm, 117, rfl⟩
abbrev main_v81 : Ref sig .tc := ⟨.hbm, 118, rfl⟩
abbrev main_c_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call2_cst : Ref sig .tc := ⟨.hbm, 146, rfl⟩
abbrev main_call2_v0 : Ref sig .tc := ⟨.hbm, 147, rfl⟩
abbrev main_v106 : Ref sig .tc := ⟨.hbm, 148, rfl⟩
abbrev main_v107 : Ref sig .tc := ⟨.hbm, 149, rfl⟩
abbrev main_cst_20 : Ref sig .tc := ⟨.hbm, 150, rfl⟩
abbrev main_v108 : Ref sig .tc := ⟨.hbm, 151, rfl⟩
abbrev main_cst_21 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_22 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_23 : Ref sig .tc := ⟨.hbm, 160, rfl⟩
abbrev main_v115 : Ref sig .tc := ⟨.hbm, 161, rfl⟩
abbrev main_v116 : Ref sig .tc := ⟨.hbm, 162, rfl⟩
abbrev main_c_24 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_25 : Ref sig .tc := ⟨.hbm, 169, rfl⟩
abbrev main_v122 : Ref sig .tc := ⟨.hbm, 170, rfl⟩
abbrev main_v123 : Ref sig .tc := ⟨.hbm, 171, rfl⟩
abbrev main_c_26 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_27 : Ref sig .tc := ⟨.hbm, 179, rfl⟩
abbrev main_v130 : Ref sig .tc := ⟨.hbm, 180, rfl⟩
abbrev main_v131 : Ref sig .tc := ⟨.hbm, 181, rfl⟩
abbrev main_c_28 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_29 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.KernelRun.lean ====
/-
  The idealized kernel's run, with its result named.

  @main is thirteen segments: six stretches of host operations and seven grid launches.  The launch theorem for
  such a list of segments gives, for every weakly fair execution, termination without a fault in a state whose
  unscoped buffers hold the last boundary's contents.  Read at the result buffer, that is the last launch's output
  array after its twenty grid points have written their blocks back; read at an argument, it is the argument as
  launched.
-/
import proofs.«161296_j1133871366243_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents of the
    last boundary (the seventh launch's output array after all its write-backs), and every argument as launched. -/
theorem run : θ_run defs (onTc (τ := τ) (main (F := F))) ⟨m, fun _ => 0, ρ⟩ (fun r => ∀ c : Dev nD,
      r.2.mem ((c.tc : Thread nD τ).loc main_v94) = W13 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v94 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Run

end
-- ==== Proof.Spec.lean ====
/-
  The layer functions of the network, index by index on the extended reals.

  A node table is an array over 100000 × 64, a weight matrix over 64 × 64.  Every dense stage of the network is one
  of four row-local functions of such tables: the product of a table with a weight matrix; the graph-convolution
  combine  agg + xw · s + b  (s one scale per node, b one bias per feature), with or without the cut at zero; the
  neighbourhood-mean combine  (mean·Wl + h·Wr + b) + h, with or without the cut at zero; and the linear layer
  cut at zero,  max (x·W + b) 0.  Each is stated here at an index (r, j): entry j of node r.
-/
import Idealize.ShloMosaic.PureOps.Ideal
import Idealize.ShloMosaic.Lib.ValueIdx

noncomputable section

namespace Cert.Spec

open Idealize.ShloMosaic Idealize.ShloMosaic.ValueIdx

/-- A node table: 100000 nodes, 64 features. -/
abbrev SN : Shape := ⟨2, ![100000, 64]⟩
/-- A weight matrix. -/
abbrev SW : Shape := ⟨2, ![64, 64]⟩
/-- One number per node. -/
abbrev SV : Shape := ⟨1, ![100000]⟩
/-- One number per feature. -/
abbrev SB : Shape := ⟨1, ![64]⟩

/-- The zero every cut compares with: the all-zero word read as a float. -/
abbrev zeroF : EReal := Ideal.ofBits .f32 0x00000000#32

/-- Table times matrix: entry (r, j) is the sum over k of x(r, k) · w(k, j). -/
def mm (x : FVec Ideal SN .f32) (w : FVec Ideal SW .f32) : FVec Ideal SN .f32 :=
  fun i => ∑ k : Fin 64, x (ix2 (i 0) k) * w (ix2 k (i 1))

/-- The graph-convolution combine: agg(r, j) + xw(r, j) · s(r), then + b(j). -/
def gcn (agg xw : FVec Ideal SN .f32) (s : FVec Ideal SV .f32) (b : FVec Ideal SB .f32) : FVec Ideal SN .f32 :=
  fun i => (agg i + xw i * s (ix1 (i 0))) + b (ix1 (i 1))

/-- The same, cut at zero. -/
def gcnCut (agg xw : FVec Ideal SN .f32) (s : FVec Ideal SV .f32) (b : FVec Ideal SB .f32) : FVec Ideal SN .f32 :=
  fun i => max (gcn agg xw s b i) zeroF

/-- The neighbourhood-mean combine as the kernel groups it: ((mean·Wl + h·Wr) + b) + h. -/
def sage (mean : FVec Ideal SN .f32) (wl : FVec Ideal SW .f32) (h : FVec Ideal SN .f32) (wr : FVec Ideal SW .f32)
    (b : FVec Ideal SB .f32) : FVec Ideal SN .f32 :=
  fun i => ((mm mean wl i + mm h wr i) + b (ix1 (i 1))) + h i

/-- The same, cut at zero. -/
def sageCut (mean : FVec Ideal SN .f32) (wl : FVec Ideal SW .f32) (h : FVec Ideal SN .f32) (wr : FVec Ideal SW .f32)
    (b : FVec Ideal SB .f32) : FVec Ideal SN .f32 :=
  fun i => max (sage mean wl h wr b i) zeroF

/-- The neighbourhood-mean combine as the reference groups it, ((mean·Wl + b) + h·Wr) + h, is the same number:
    addition of extended reals is commutative and associative, infinite terms included. -/
theorem sage_regroup (a b c d : EReal) : ((a + b) + c) + d = ((a + c) + b) + d := by
  rw [add_right_comm a b c]

/-- The linear layer cut at zero: max (x·W(r, j) + b(j)) 0. -/
def linCut (x : FVec Ideal SN .f32) (w : FVec Ideal SW .f32) (b : FVec Ideal SB .f32) : FVec Ideal SN .f32 :=
  fun i => max (mm x w i + b (ix1 (i 1))) zeroF

end Cert.Spec

end
-- ==== Proof.Net.lean ====
/-
  The network as one function of its fourteen arguments, on the extended reals.

  The graph enters only through the edge list: its first row holds the sources, its second the targets.  From it come,
  once for the whole network, the in-degree of every node (a scatter of ones at the targets), the symmetric
  normalisation  dis = (deg + 1)^(-1/2),  the edge weights  dis(src) · dis(dst),  the self-loop weights  dis · dis,  and
  the mean's divisor  max deg 1.  A graph-convolution layer gathers the projected table at the sources, weights every
  edge, scatters the sum at the targets and combines it with the self-loop term and the bias; a neighbourhood-mean
  layer gathers the table itself, scatters, divides by the divisor and combines.  The gathers and the scatters are the
  host's own operations, applied here as they stand; the dense stages are the index-by-index functions of Spec.lean.
-/
import proofs.«161296_j1133871366243_1_alg».proof.Proof.Gen.ReferenceIdeal
import proofs.«161296_j1133871366243_1_alg».proof.Proof.Spec

noncomputable section

namespace Cert.Net

open Idealize.ShloMosaic Cert.ReferenceIdeal Cert.ReferenceIdeal.Facts₀ Cert.Spec

/-- The sources: row 0 of the edge list. -/
def srcOf (e : IVec S2x1250000 32) : IVec S1250000 32 :=
  shapeCast _ (extractStridedSlice S1x1250000 ![0, 0] e slices_S2x1250000_S1x1250000_0_0) shapeCasts_S1x1250000_S1250000
/-- The targets: row 1 of the edge list. -/
def dstOf (e : IVec S2x1250000 32) : IVec S1250000 32 :=
  shapeCast _ (extractStridedSlice S1x1250000 ![1, 0] e slices_S2x1250000_S1x1250000_1_0) shapeCasts_S1x1250000_S1250000
/-- A node index as the host reads it for a gather: a negative one counts from the end. -/
def wrap (v : IVec S1250000 32) : IVec S1250000 32 :=
  select (cmpi .slt v (broadcastInDim S1250000 ![] bcast_S_S1250000 (constantI S_ 32 0#32)))
    (addi v (broadcastInDim S1250000 ![] bcast_S_S1250000 (constantI S_ 32 100000#32))) v
/-- An index vector as the one-column index array the gathers and scatters take. -/
def col (v : IVec S1250000 32) : IVec S1250000x1 32 := broadcastInDim S1250000x1 ![0] bcast_S1250000_S1250000x1_0 v

/-- One per node. -/
def onesN : FVec Ideal S100000 .f32 := broadcastInDim S100000 ![] bcast_S_S100000 (constant S_ .f32 0x3F800000#32)
/-- The empty table a row scatter starts from. -/
def zerosT : FVec Ideal S100000x64 .f32 := broadcastInDim S100000x64 ![] bcast_S_S100000x64 (constant S_ .f32 0x00000000#32)

/-- In-degree: a one scattered at every edge's target. -/
def deg (e : IVec S2x1250000 32) : FVec Ideal S100000 .f32 :=
  Host.scatterAdd scatter_S100000_S1250000x1_S1250000_n_0_0_1
    (broadcastInDim S100000 ![] bcast_S_S100000 (constant S_ .f32 0x00000000#32)) (col (dstOf e))
    (broadcastInDim S1250000 ![] bcast_S_S1250000 (constant S_ .f32 0x3F800000#32))
/-- (deg + 1)^(-1/2). -/
def dis (e : IVec S2x1250000 32) : FVec Ideal S100000 .f32 := Host.rsqrt (addf (deg e) onesN)
/-- The weight of an edge: dis at its source times dis at its target. -/
def edgeW (e : IVec S2x1250000 32) : FVec Ideal S1250000 .f32 :=
  mulf (Host.gather gather_S100000_S1250000x1_S1250000_n_0_n_n_0_1_1 (dis e) (col (wrap (srcOf e))))
    (Host.gather gather_S100000_S1250000x1_S1250000_n_0_n_n_0_1_1 (dis e) (col (wrap (dstOf e))))
/-- The weight of a node's self loop. -/
def selfW (e : IVec S2x1250000 32) : FVec Ideal S100000 .f32 := mulf (dis e) (dis e)
/-- The divisor of the neighbourhood mean. -/
def degM (e : IVec S2x1250000 32) : FVec Ideal S100000 .f32 := maximumf (deg e) onesN

/-- The rows of a table at the edges' sources. -/
def atSrc (e : IVec S2x1250000 32) (t : FVec Ideal S100000x64 .f32) : FVec Ideal S1250000x64 .f32 :=
  Host.gather gather_S100000x64_S1250000x1_S1250000x64_1_0_n_n_0_1_164 t (col (wrap (srcOf e)))
/-- Edge rows summed at the edges' targets. -/
def toDst (e : IVec S2x1250000 32) (u : FVec Ideal S1250000x64 .f32) : FVec Ideal S100000x64 .f32 :=
  Host.scatterAdd scatter_S100000x64_S1250000x1_S1250000x64_1_0_0_1 zerosT (col (dstOf e)) u

/-- The weighted neighbour sum of a graph-convolution layer. -/
def aggW (e : IVec S2x1250000 32) (xw : FVec Ideal S100000x64 .f32) : FVec Ideal S100000x64 .f32 :=
  toDst e (mulf (atSrc e xw)
    (broadcastInDim S1250000x64 ![0, 1] bcast_S1250000x1_S1250000x64_0_1
      (broadcastInDim S1250000x1 ![0] bcast_S1250000_S1250000x1_0 (edgeW e))))
/-- The neighbourhood mean of a table. -/
def meanOf (e : IVec S2x1250000 32) (h : FVec Ideal S100000x64 .f32) : FVec Ideal S100000x64 .f32 :=
  Host.divf (toDst e (atSrc e h))
    (broadcastInDim S100000x64 ![0, 1] bcast_S100000x1_S100000x64_0_1
      (broadcastInDim S100000x1 ![0] bcast_S100000_S100000x1_0 (degM e)))

/-- Layer 0: graph convolution, cut at zero. -/
def h1 (x : FVec Ideal S100000x64 .f32) (e : IVec S2x1250000 32) (w : FVec Ideal S64x64 .f32) (b : FVec Ideal S64 .f32) :
    FVec Ideal S100000x64 .f32 :=
  gcnCut (aggW e (mm x w)) (mm x w) (selfW e) b
/-- A neighbourhood-mean layer with its residual, before any cut. -/
def sageOf (e : IVec S2x1250000 32) (h : FVec Ideal S100000x64 .f32) (wl : FVec Ideal S64x64 .f32) (b : FVec Ideal S64 .f32)
    (wr : FVec Ideal S64x64 .f32) : FVec Ideal S100000x64 .f32 :=
  sage (meanOf e h) wl h wr b
/-- Layer 1: neighbourhood mean plus residual, cut at zero. -/
def sageCutOf (e : IVec S2x1250000 32) (h : FVec Ideal S100000x64 .f32) (wl : FVec Ideal S64x64 .f32) (b : FVec Ideal S64 .f32)
    (wr : FVec Ideal S64x64 .f32) : FVec Ideal S100000x64 .f32 :=
  sageCut (meanOf e h) wl h wr b
/-- The last layer: graph convolution, no cut. -/
def gcnOf (e : IVec S2x1250000 32) (h : FVec Ideal S100000x64 .f32) (w : FVec Ideal S64x64 .f32) (b : FVec Ideal S64 .f32) :
    FVec Ideal S100000x64 .f32 :=
  gcn (aggW e (mm h w)) (mm h w) (selfW e) b

/-- The whole network. -/
def out (x : FVec Ideal S100000x64 .f32) (e : IVec S2x1250000 32)
    (w1 : FVec Ideal S64x64 .f32) (b1 : FVec Ideal S64 .f32)
    (wl1 : FVec Ideal S64x64 .f32) (bl1 : FVec Ideal S64 .f32) (wr1 : FVec Ideal S64x64 .f32)
    (wl2 : FVec Ideal S64x64 .f32) (bl2 : FVec Ideal S64 .f32) (wr2 : FVec Ideal S64x64 .f32)
    (wlin : FVec Ideal S64x64 .f32) (blin : FVec Ideal S64 .f32)
    (w2 : FVec Ideal S64x64 .f32) (b2 : FVec Ideal S64 .f32) : FVec Ideal S100000x64 .f32 :=
  gcnOf e (linCut (sageOf e (sageCutOf e (h1 x e w1 b1) wl1 bl1 wr1) wl2 bl2 wr2) wlin blin) w2 b2

end Cert.Net

end
-- ==== Proof.SpecB.lean ====
/-
  The dense stages as the kernel's launches see their operands: the per-node scale as a one-column array over
  100000 × 1 and the per-feature bias as a one-row array over 1 × 64 (the host reshapes the vectors so before each
  launch).  Each stage below is the stage of Spec.lean with the scale read at (r, 0) and the bias at (0, j); the
  last lemmas say so for a column and a row that are reshapes of vectors.
-/
import proofs.«161296_j1133871366243_1_alg».proof.Proof.Spec

noncomputable section

namespace Cert.Spec

open Idealize.ShloMosaic Idealize.ShloMosaic.ValueIdx

/-- One number per node, as a column. -/
abbrev SC : Shape := ⟨2, ![100000, 1]⟩
/-- One number per feature, as a row. -/
abbrev SR : Shape := ⟨2, ![1, 64]⟩

/-- agg + xw · s + b with s a column and b a row. -/
def gcnB (agg xw : FVec Ideal SN .f32) (s : FVec Ideal SC .f32) (b : FVec Ideal SR .f32) : FVec Ideal SN .f32 :=
  fun i => (agg i + xw i * s (ix2 (i 0) 0)) + b (ix2 0 (i 1))
/-- The same, cut at zero. -/
def gcnCutB (agg xw : FVec Ideal SN .f32) (s : FVec Ideal SC .f32) (b : FVec Ideal SR .f32) : FVec Ideal SN .f32 :=
  fun i => max (gcnB agg xw s b i) zeroF
/-- ((mean·Wl + h·Wr) + b) + h with b a row. -/
def sageB (mean : FVec Ideal SN .f32) (wl : FVec Ideal SW .f32) (h : FVec Ideal SN .f32) (wr : FVec Ideal SW .f32)
    (b : FVec Ideal SR .f32) : FVec Ideal SN .f32 :=
  fun i => ((mm mean wl i + mm h wr i) + b (ix2 0 (i 1))) + h i
/-- The same, cut at zero. -/
def sageCutB (mean : FVec Ideal SN .f32) (wl : FVec Ideal SW .f32) (h : FVec Ideal SN .f32) (wr : FVec Ideal SW .f32)
    (b : FVec Ideal SR .f32) : FVec Ideal SN .f32 :=
  fun i => max (sageB mean wl h wr b i) zeroF
/-- max (x·W + b) 0 with b a row. -/
def linCutB (x : FVec Ideal SN .f32) (w : FVec Ideal SW .f32) (b : FVec Ideal SR .f32) : FVec Ideal SN .f32 :=
  fun i => max (mm x w i + b (ix2 0 (i 1))) zeroF

end Cert.Spec

end
-- ==== Proof.Pay.lean ====
import proofs.«161296_j1133871366243_1_alg».proof.Proof.Gen.KernelIdeal.Skeleton
import proofs.«161296_j1133871366243_1_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The seven kernel bodies read at one index, at the ideal values

Each body stores one `5000 × 64` block. Read at the entry `(p, q)` of that block, at the ideal
(extended real) values, a body is plain arithmetic on entries of its operands:

* a block product `x · w` is `∑ k, x (p, k) * w (k, q)` (the narrowing of the operands to bf16 is
  the identity at the ideal values, and the accumulator is the zero block);
* a bias row `b : 1 × 64` broadcast down the rows contributes `b (0, q)`;
* a scale column `s : 5000 × 1` broadcast along the lanes contributes `s (p, 0)`;
* the closing rectifier is `max · 0`.
-/

noncomputable section

open scoped BigOperators

namespace Cert.KernelIdeal.Pay

open Idealize.ShloMosaic Idealize.ShloMosaic.ValueIdx Cert.KernelIdeal Cert.KernelIdeal.Gen

/-! ## The block product at an index -/

/-- The left operand's row coordinate is the output's row. -/
theorem lhs_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand's column coordinate is the contraction coordinate. -/
theorem lhs_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c

/-- The right operand's row coordinate is the contraction coordinate. -/
theorem rhs_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c

/-- The right operand's column coordinate is the output's column. -/
theorem rhs_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product of a `5000 × 64` block and a `64 × 64` block, both narrowed to bf16, accumulated
    into the zero block: its entry `(p, q)` is `∑ k, a (p, k) * b (k, q)`. -/
theorem mm_at (a : FVec Ideal S5000x64 .f32) (b : FVec Ideal S64x64 .f32) (p : Fin 5000) (q : Fin 64) :
    matmul dot_S5000x64_S64x64_S5000x64_1_0_0_1_n_n none
        (truncf .bf16 a bitsLt_bf16_f32 : FVec Ideal S5000x64 .bf16)
        (truncf .bf16 b bitsLt_bf16_f32 : FVec Ideal S64x64 .bf16)
        (constant (F := Ideal) S5000x64 .f32 0x00000000#32) (ix2 p q)
      = ∑ k : Fin 64, a (ix2 p k) * b (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (rhs_row _ _).trans hk
      | ⟨1, _⟩ => exact rhs_col _ _)
  rw [el, er]
  rfl

/-! ## The two plain products -/

/-- The first body: `x0 · x1`. -/
theorem k0_at (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact mm_at x0 x1 p q

/-- The sixth body: `x0 · x1`, its left operand passed through a cast to its own shape. -/
theorem k5_at (x0 : Vec Ideal S5000x64 .f32) (x1 : Vec Ideal S64x64 .f32) (p : Fin 5000) (q : Fin 64) :
    k5_pay1 (F := Ideal) x0 x1 (ix2 p q) = ∑ k : Fin 64, x0 (ix2 p k) * x1 (ix2 k q) := by
  unfold k5_pay1
  rw [shapeCast_self]
  exact mm_at x0 x1 p q

/-! ## The column broadcast at an index -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two scaled sums -/

/-- The second body: `x0 + x1 * s` with `s` a column broadcast along the lanes, plus a bias row,
    rectified. -/
theorem k1_at (x0 x1 : Vec Ideal S5000x64 .f32) (x2 : Vec Ideal S5000x1 .f32) (x3 : Vec Ideal S1x64 .f32)
    (p : Fin 5000) (q : Fin 64) :
    k1_pay1 (F := Ideal) x0 x1 x2 x3 (ix2 p q)
      = max ((x0 (ix2 p q) + x1 (ix2 p q) * x2 (ix2 p 0)) + x3 (ix2 0 q)) Spec.zeroF := by
  unfold k1_pay1
  simp only [shapeCast_self]
  rw [maximumf_apply, addf_apply, addf_apply, mulf_apply, broadcast_apply, broadcastTo_a1_ab_apply,
    broadcastTo_1b_ab_apply]
  rfl

/-- The seventh body: the same sum without the rectifier. -/
theorem k6_at (x0 x1 : Vec Ideal S5000x64 .f32) (x2 : Vec Ideal S5000x1 .f32) (x3 : Vec Ideal S1x64 .f32)
    (p : Fin 5000) (q : Fin 64) :
    k6_pay1 (F := Ideal) x0 x1 x2 x3 (ix2 p q)
      = (x0 (ix2 p q) + x1 (ix2 p q) * x2 (ix2 p 0)) + x3 (ix2 0 q) := by
  unfold k6_pay1
  simp only [shapeCast_self]
  rw [addf_apply, addf_apply, mulf_apply, broadcastTo_a1_ab_apply, broadcastTo_1b_ab_apply]

/-! ## The product with a bias -/

/-- The fifth body: `x0 · x1` plus a bias row, rectified. -/
theorem k4_at (x0 : Vec Ideal S5000x64 .f32) (x1 : Vec Ideal S64x64 .f32) (x2 : Vec Ideal S1x64 .f32)
    (p : Fin 5000) (q : Fin 64) :
    k4_pay1 (F := Ideal) x0 x1 x2 (ix2 p q)
      = max ((∑ k : Fin 64, x0 (ix2 p k) * x1 (ix2 k q)) + x2 (ix2 0 q)) Spec.zeroF := by
  unfold k4_pay1
  simp only [shapeCast_self]
  rw [maximumf_apply, addf_apply, mm_at, broadcastTo_1b_ab_apply, broadcast_apply]
  rfl

/-! ## The two-product bodies -/

/-- The third body: `x0 · x1 + x2 · x3`, plus a bias row, plus `x2` itself, rectified. The sums
    associate as `((x0 · x1 + x2 · x3) + bias) + x2`. -/
theorem k2_at (x0 : Vec Ideal S5000x64 .f32) (x1 : Vec Ideal S64x64 .f32) (x2 : Vec Ideal S5000x64 .f32)
    (x3 : Vec Ideal S64x64 .f32) (x4 : Vec Ideal S1x64 .f32) (p : Fin 5000) (q : Fin 64) :
    k2_pay1 (F := Ideal) x0 x1 x2 x3 x4 (ix2 p q)
      = max (((((∑ k : Fin 64, x0 (ix2 p k) * x1 (ix2 k q)) + (∑ k : Fin 64, x2 (ix2 p k) * x3 (ix2 k q)))
          + x4 (ix2 0 q)) + x2 (ix2 p q))) Spec.zeroF := by
  unfold k2_pay1
  simp only [shapeCast_self]
  rw [maximumf_apply, addf_apply, addf_apply, addf_apply, mm_at, mm_at, broadcastTo_1b_ab_apply,
    broadcast_apply]
  rfl

/-- The fourth body: the same sum without the rectifier. -/
theorem k3_at (x0 : Vec Ideal S5000x64 .f32) (x1 : Vec Ideal S64x64 .f32) (x2 : Vec Ideal S5000x64 .f32)
    (x3 : Vec Ideal S64x64 .f32) (x4 : Vec Ideal S1x64 .f32) (p : Fin 5000) (q : Fin 64) :
    k3_pay1 (F := Ideal) x0 x1 x2 x3 x4 (ix2 p q)
      = (((∑ k : Fin 64, x0 (ix2 p k) * x1 (ix2 k q)) + (∑ k : Fin 64, x2 (ix2 p k) * x3 (ix2 k q)))
          + x4 (ix2 0 q)) + x2 (ix2 p q) := by
  unfold k3_pay1
  simp only [shapeCast_self]
  rw [addf_apply, addf_apply, addf_apply, mm_at, mm_at, broadcastTo_1b_ab_apply]

end Cert.KernelIdeal.Pay

end
-- ==== Proof.Region0.lean ====
/-
  The first launch (a node table times a weight matrix) as one function of its two operand arrays.

  The grid has twenty points; point t works on rows 5000·t … 5000·t + 4999.  Its block of the table and of the output
  are those rows, its block of the weight matrix is the whole matrix.  So what point t writes back is rows 5000·t … of
  the product taken on the whole arrays, and the twenty blocks cover the output array.
-/
import proofs.«161296_j1133871366243_1_alg».proof.Proof.Gen.KernelIdeal.Frame
import proofs.«161296_j1133871366243_1_alg».proof.Proof.SpecB
import proofs.«161296_j1133871366243_1_alg».proof.Proof.Pay
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: the table's and the output's row blocks move with the point, the
    weight matrix stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

open Cert.KernelIdeal.Pay

/-- The arithmetic of one entry: summing the products of the table's block along its row and the matrix along its
    column, each read where the output's block says, is the product of the whole arrays at the output's index. -/
theorem point_eq (A : FVec Ideal S100000x64 .f32) (W : FVec Ideal S64x64 .f32)
    (l : Fin 64 → S100000x64.Idx) (r : Fin 64 → S64x64.Idx) (i : S100000x64.Idx)
    (hl : ∀ k, l k = ix2 (i 0) k) (hr : ∀ k, r k = ix2 k (i 1)) :
    ∑ k : Fin 64, A (l k) * W (r k) = mm A W i := by
  show _ = ∑ k : Fin 64, A (ix2 (i 0) k) * W (ix2 k (i 1))
  exact Finset.sum_congr rfl fun k _ => by rw [hl k, hr k]; rfl

/-- What point t writes back is block t of the product taken on the whole operand arrays. -/
theorem flushed_eq (c : Dev nD) (t : Fin cfg0.N) :
    (dat0 (F := Ideal) V c).flushed 2 t
      = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  refine (k0_at _ _ p q).trans ?_
  obtain ⟨e00, e01, e10, e11, e20, e21⟩ := idx_facts t
  have hp := p.isLt
  have hq := q.isLt
  have hl : ∀ k : Fin 64, ((cfg0.win 0).blk t).view.emb (ix2 p k)
      = (ix2 ((((cfg0.win 2).blk t).view.emb (ix2 p q)) 0) k : S100000x64.Idx) := by
    intro k; funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have hr : ∀ k : Fin 64, ((cfg0.win 1).blk t).view.emb (ix2 k q)
      = (ix2 k ((((cfg0.win 2).blk t).view.emb (ix2 p q)) 1) : S64x64.Idx) := by
    intro k; funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  exact point_eq (V c main_arg0) (V c main_arg2) _ _ _ hl hr

/-- An index of the output array is in point t's block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Row r lies in the block of point r / 5000: the twenty blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  obtain ⟨-, -, -, -, e20, e21⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e21]; omega

/-- The output array after the launch is the product of the operand arrays as the launch found them. -/
theorem final (c : Dev nD) :
    (dat0 (F := Ideal) V c).arrAt 2 cfg0.N = mm (V c main_arg0) (V c main_arg2) :=
  (dat0 (F := Ideal) V c).arrAt_eq_of_cover 2 _ (fun t _ => flushed_eq V c t) cover

end Cert.KernelIdeal.Region0

end
-- ==== Proof.Region1.lean ====
/-
  The second launch (the graph-convolution combine, cut at zero) as one function of its four operand arrays.

  The grid has twenty points; point t works on rows 5000·t … 5000·t + 4999.  Its blocks of the two tables and of the
  output are those rows, its block of the scale column is those rows of the column, its block of the bias row is the
  whole row.  So what point t writes back is rows 5000·t … of  max ((agg + xw · s) + b) 0  taken on the whole arrays,
  and the twenty blocks cover the output array.
-/
import proofs.«161296_j1133871366243_1_alg».proof.Proof.Gen.KernelIdeal.Frame
import proofs.«161296_j1133871366243_1_alg».proof.Proof.SpecB
import proofs.«161296_j1133871366243_1_alg».proof.Proof.Pay
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: row blocks move with the point, the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

open Cert.KernelIdeal.Pay

/-- The arithmetic of one entry: reading the four blocks where the output's block says is reading the whole arrays
    at the output's index, the column at its row and the row at its feature. -/
theorem point_eq (A X : FVec Ideal S100000x64 .f32) (S : FVec Ideal S100000x1 .f32) (B : FVec Ideal S1x64 .f32)
    (i0 i1 i4 : S100000x64.Idx) (i2 : S100000x1.Idx) (i3 : S1x64.Idx)
    (h0 : i0 = i4) (h1 : i1 = i4) (h2 : i2 = ix2 (i4 0) (0 : Fin 1)) (h3 : i3 = ix2 (0 : Fin 1) (i4 1)) :
    max (A i0 + X i1 * S i2 + B i3) zeroF = gcnCutB A X S B i4 := by
  subst h0 h1 h2 h3; rfl

/-- What point t writes back is block t of the combine taken on the whole operand arrays. -/
theorem flushed_eq (c : Dev nD) (t : Fin cfg1.N) :
    (dat1 (F := Ideal) V c).flushed 4 t
      = ((cfg1.win 4).blk t).view.read (Elt Ideal) (gcnCutB (V c main_v42) (V c main_v29) (V c main_v43) (V c main_v44)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (k1_at _ _ _ _ p q).trans ?_
  obtain ⟨e00, e01, e10, e11, e20, e21, e30, e31, e40, e41⟩ := idx_facts t
  have hp := p.isLt
  have hq := q.isLt
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1))
      = (ix2 ((((cfg1.win 4).blk t).view.emb (ix2 p q)) 0) (0 : Fin 1) : SC.Idx) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q)
      = (ix2 (0 : Fin 1) ((((cfg1.win 4).blk t).view.emb (ix2 p q)) 1) : SR.Idx) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  exact point_eq (V c main_v42) (V c main_v29) (V c main_v43) (V c main_v44) _ _ _ _ _ h0 h1 h2 h3

/-- An index of the output array is in point t's block iff each coordinate is in the block's range. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v45).slice (win1_4.rect t)).set ↔ _
  rw [View.set_slice_whole, Rect.mem_set_unit]
  exact Iff.rfl

/-- Row r lies in the block of point r / 5000: the twenty blocks cover the array. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_4 _, ?_⟩
  obtain ⟨-, -, -, -, -, -, -, -, e40, e41⟩ := idx_facts ⟨(i 0).val / 5000, by rw [hN]; omega⟩
  rw [mem_blk]
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e41]; omega

/-- The output array after the launch is the combine of the operand arrays as the launch found them. -/
theorem final (c : Dev nD) :
    (dat1 (F := Ideal) V c).arrAt 4 cfg1.N = gcnCutB (V c main_v42) (V c main_v29) (V c main_v43) (V c main_v44) :=
  (dat1 (F := Ideal) V c).arrAt_eq_of_cover 4 _ (fun t _ => flushed_eq V c t) cover

end Cert.KernelIdeal.Region1

end
-- ==== Proof.Region2.lean ====
/-
  The third launch (the neighbourhood-mean combine with its residual, cut at zero) as one function of its five operand
  arrays.

  The grid has twenty points; point t works on rows 5000·t … 5000·t + 4999.  Its blocks of the two tables and of the
  output are those rows; its blocks of the two weight matrices are the whole matrices and its block of the bias row
  is the whole row.  An entry of a row block times a whole matrix is the sum over the inner index of the table's row
  entries times the matrix's column entries, so what point t writes back is rows 5000·t … of
  max (((mean·Wl + h·Wr) + b) + h) 0  taken on the whole arrays, and the twenty blocks cover the output array.
-/
import proofs.«161296_j1133871366243_1_alg».proof.Proof.Gen.KernelIdeal.Frame
import proofs.«161296_j1133871366243_1_alg».proof.Proof.SpecB
import proofs.«161296_j1133871366243_1_alg».proof.Proof.Pay
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: row blocks move with the point; the matrices and the bias row
    stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

open Cert.KernelIdeal.Pay

/-- The arithmetic of one entry: the two sums run over the output's row of the tables and the output's column of
    the matrices, the bias is read at the output's feature and the residual at the output's index. -/
theorem point_eq (M : FVec Ideal S100000x64 .f32) (Wl : FVec Ideal S64x64 .f32) (H : FVec Ideal S100000x64 .f32)
    (Wr : FVec Ideal S64x64 .f32) (B : FVec Ideal S1x64 .f32)
    (f0 : Fin 64 → S100000x64.Idx) (f1 : Fin 64 → S64x64.Idx) (f2 : Fin 64 → S100000x64.Idx) (f3 : Fin 64 → S64x64.Idx)
    (i2 i5 : S100000x64.Idx) (i4 : S1x64.Idx)
    (h0 : ∀ k, f0 k = ix2 (i5 0) k) (h1 : ∀ k, f1 k = ix2 k (i5 1))
    (h2 : ∀ k, f2 k = ix2 (i5 0) k) (h3 : ∀ k, f3 k = ix2 k (i5 1))
    (h4 : i4 = ix2 (0 : Fin 1) (i5 1)) (h5 : i2 = i5) :
    max ((((∑ k : Fin 64, M (f0 k) * Wl (f1 k)) + (∑ k : Fin 64, H (f2 k) * Wr (f3 k))) + B i4) + H i2) zeroF = sageCutB M Wl H Wr B i5 := by
  subst h4 h5
  simp only [h0, h1, h2, h3]
  rfl

/-- What point t writes back is block t of the combine taken on the whole operand arrays. -/
theorem flushed_eq (c : Dev nD) (t : Fin cfg2.N) :
    (dat2 (F := Ideal) V c).flushed 5 t
      = ((cfg2.win 5).blk t).view.read (Elt Ideal) (sageCutB (V c main_v58) (V c main_arg4) (V c main_v45) (V c main_arg6) (V c main_v59)) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (k2_at _ _ _ _ _ p q).trans ?_
  obtain ⟨e00, e01, e10, e11, e20, e21, e30, e31, e40, e41, e50, e51⟩ := idx_facts t
  have hp := p.isLt
  have hq := q.isLt
  have h0 : ∀ k : Fin 64, ((cfg2.win 0).blk t).view.emb (ix2 p k) = (ix2 ((((cfg2.win 5).blk t).view.emb (ix2 p q)) 0) k : SN.Idx) := by
    intro k; funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * k.val = k.val; omega
  have h1 : ∀ k : Fin 64, ((cfg2.win 1).blk t).view.emb (ix2 k q) = (ix2 k ((((cfg2.win 5).blk t).view.emb (ix2 p q)) 1) : SW.Idx) := by
    intro k; funext a; apply Fin.ext
    match a with
    | ⟨0, _⟩ => show win2_1.index t (0 : Fin 2) * 64 + 1 * k.val = k.val; omega
    | ⟨1, _⟩ => show win2_1.index t (1 : Fin 2) * 64 + 1 * q.val = win2_5.index t (1 : Fin 2) * 64 + 1 * q.val; omega
  have h2 : ∀ k : Fin 64, ((cfg2.win 2).blk t).view.emb (ix2 p k) = (ix2 ((((cfg2.win 5).blk t).view.emb (ix2 p q)) 0) k : SN.Idx) := by
    intro k; funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 64 + 1 * k.val = k.val; omega
  have h3 : ∀ k : Fin 64, ((cfg2.win 3).blk t).view.emb (ix2 k q) = (ix2 k ((((cfg2.win 5).blk t).view.emb (ix2 p q)) 1) : SW.Idx) := by
    intro k; funext a; apply Fin.ext
    match a with
    | ⟨0, _⟩ => show win2_3.index t (0 : Fin 2) * 64 + 1 * k.val = k.val; omega
    | ⟨1, _⟩ => show win2_3.index t (1 : Fin 2) * 64 + 1 * q.val = win2_5.index t (1 : Fin 2) * 64 + 1 * q.val; omega
  have h4 : ((cfg2.win 4).blk t).view.emb (ix2 (0 : Fin 1) q) = (ix2 (0 : Fin 1) ((((cfg2.win 5).blk t).view.emb (ix2 p q)) 1) : SR.Idx) := by
    funext a; apply Fin.ext
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega
  have h5 : ((cfg2.win 2).blk t).view.emb (ix2 p q) = ((cfg2.win 5).blk t).view.emb (ix2 p q) := by
    funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 64 + 1 * q.val = win2_5.index t (1 : Fin 2) * 64 + 1 * q.val; omega
  exact point_eq (V c main_v58) (V c main_arg4) (V c main_v45) (V c main_arg6) (V c main_v59)
    (fun k => ((cfg2.win 0).blk t).view.emb (ix2 p k)) (fun k => ((cfg2.win 1).blk t).view.emb (ix2 k q))
    (fun k => ((cfg2.win 2).blk t).view.emb (ix2 p k)) (fun k => ((cfg2.win 3).blk t).view.emb (ix2 k q))
    _ _ _ h0 h1 h2 h3 h4 h5

/-- An index of the output array is in point t's block iff each coordinate is in the block's range. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v60).slice (win2_5.rect t)).set ↔ _
  rw [View.set_slice_whole, Rect.mem_set_unit]
  exact Iff.rfl

/-- Row r lies in the block of point r / 5000: the twenty blocks cover the array. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_5 _, ?_⟩
  obtain ⟨-, -, -, -, -, -, -, -, -, -, e50, e51⟩ := idx_facts ⟨(i 0).val / 5000, by rw [hN]; omega⟩
  rw [mem_blk]
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [e51]; omega

/-- The output array after the launch is the combine of the operand arrays as the launch found them. -/
theorem final (c : Dev nD) :
    (dat2 (F := Ideal) V c).arrAt 5 cfg2.N = sageCutB (V c main_v58) (V c main_arg4) (V c main_v45) (V c main_arg6) (V c main_v59) :=
  (dat2 (F := Ideal) V c).arrAt_eq_of_cover 5 _ (fun t _ => flushed_eq V c t) cover

end Cert.KernelIdeal.Region2

end
-- ==== Proof.Region3.lean ====
/-
  The fourth launch (the neighbourhood-mean combine, not cut) as one function of its five operand arrays.

  The grid has twenty points; point t works on rows 5000·t … 5000·t + 4999.  Its blocks of the two tables and of the
  output are those rows, its blocks of the two weight matrices are the whole matrices and its block of the bias row is
  the whole row.  So what point t writes back is rows 5000·t … of  ((mean·Wl + h·Wr) + b) + h  taken on the whole
  arrays, and the twenty blocks cover the output array.
-/
import proofs.«161296_j1133871366243_1_alg».proof.Proof.Gen.KernelIdeal.Frame
import proofs.«161296_j1133871366243_1_alg».proof.Proof.SpecB
import proofs.«161296_j1133871366243_1_alg».proof.Proof.Pay
import Idealize.ShloMosaic.Lib.Pipeline.Value
import Idealize.ShloMosaic.Lib.ValueIdx

set_option maxRecDepth 16384

noncomputable section

open scoped BigOperators

namespace Cert.KernelIdeal.Region3

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: the two tables' and the output's row blocks move with the point,
    the two weight matrices and the bias row stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

open Cert.KernelIdeal.Pay

/-- A row of a table's block times a column of a matrix, each read where the output's block says, is the product of
    the whole arrays at the output's index. -/
theorem sum_eq (A : FVec Ideal S100000x64 .f32) (W : FVec Ideal S64x64 .f32)
    (l : Fin 64 → S100000x64.Idx) (r : Fin 64 → S64x64.Idx) (i : S100000x64.Idx)
    (hl : ∀ k, l k = ix2 (i 0) k) (hr : ∀ k, r k = ix2 k (i 1)) :
    ∑ k : Fin 64, A (l k) * W (r k) = mm A W i := by
  show _ = ∑ k : Fin 64, A (ix2 (i 0) k) * W (ix2 k (i 1))
  exact Finset.sum_congr rfl fun k _ => by rw [hl k, hr k]; rfl

/-- The arithmetic of one entry: the two products, the bias at the entry's feature and the second table's own entry,
    each operand read where the output's block says, are the combine of the whole arrays at the output's index. The
    second table is read twice: along its row inside the second product, and at the entry itself. -/
theorem point_eq (Mn : FVec Ideal S100000x64 .f32) (Wl : FVec Ideal S64x64 .f32) (H : FVec Ideal S100000x64 .f32)
    (Wr : FVec Ideal S64x64 .f32) (B : FVec Ideal S1x64 .f32)
    (l1 : Fin 64 → S100000x64.Idx) (r1 : Fin 64 → S64x64.Idx) (l2 : Fin 64 → S100000x64.Idx) (r2 : Fin 64 → S64x64.Idx)
    (i4 : S1x64.Idx) (i2 i : S100000x64.Idx)
    (hl1 : ∀ k, l1 k = ix2 (i 0) k) (hr1 : ∀ k, r1 k = ix2 k (i 1))
    (hl2 : ∀ k, l2 k = ix2 (i 0) k) (hr2 : ∀ k, r2 k = ix2 k (i 1))
    (h4 : i4 = ix2 (0 : Fin 1) (i 1)) (h2 : i2 = i) :
    (((∑ k : Fin 64, Mn (l1 k) * Wl (r1 k)) + (∑ k : Fin 64, H (l2 k) * Wr (r2 k))) + B i4) + H i2
      = sageB Mn Wl H Wr B i := by
  calc (((∑ k : Fin 64, Mn (l1 k) * Wl (r1 k)) + (∑ k : Fin 64, H (l2 k) * Wr (r2 k))) + B i4) + H i2
      = ((mm Mn Wl i + mm H Wr i) + B (ix2 (0 : Fin 1) (i 1))) + H i := by
        rw [sum_eq Mn Wl l1 r1 i hl1 hr1, sum_eq H Wr l2 r2 i hl2 hr2, h4, h2]; rfl
    _ = sageB Mn Wl H Wr B i := rfl

/-- What point t writes back is block t of the combine taken on the whole operand arrays. -/
theorem flushed_eq (c : Dev nD) (t : Fin cfg3.N) :
    (dat3 (F := Ideal) V c).flushed 5 t
      = ((cfg3.win 5).blk t).view.read (Elt Ideal)
          (sageB (V c main_v73) (V c main_arg7) (V c main_v60) (V c main_arg9) (V c main_v74)) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (k3_at _ _ _ _ _ p q).trans ?_
  obtain ⟨e00, e01, e10, e11, e20, e21, e30, e31, e40, e41, e50, e51⟩ := idx_facts t
  have hp := p.isLt
  have hq := q.isLt
  have hl1 : ∀ k : Fin 64, ((cfg3.win 0).blk t).view.emb (ix2 p k)
      = (ix2 ((((cfg3.win 5).blk t).view.emb (ix2 p q)) 0) k : S100000x64.Idx) := by
    intro k; funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 64 + 1 * k.val = k.val; omega
  have hr1 : ∀ k : Fin 64, ((cfg3.win 1).blk t).view.emb (ix2 k q)
      = (ix2 k ((((cfg3.win 5).blk t).view.emb (ix2 p q)) 1) : S64x64.Idx) := by
    intro k; funext a; apply Fin.ext
    match a with
    | ⟨0, _⟩ => show win3_1.index t (0 : Fin 2) * 64 + 1 * k.val = k.val; omega
    | ⟨1, _⟩ => show win3_1.index t (1 : Fin 2) * 64 + 1 * q.val = win3_5.index t (1 : Fin 2) * 64 + 1 * q.val; omega
  have hl2 : ∀ k : Fin 64, ((cfg3.win 2).blk t).view.emb (ix2 p k)
      = (ix2 ((((cfg3.win 5).blk t).view.emb (ix2 p q)) 0) k : S100000x64.Idx) := by
    intro k; funext a; apply Fin.ext
    match a with
    | ⟨0, _⟩ => show win3_2.index t (0 : Fin 2) * 5000 + 1 * p.val = win3_5.index t (0 : Fin 2) * 5000 + 1 * p.val; omega
    | ⟨1, _⟩ => show win3_2.index t (1 : Fin 2) * 64 + 1 * k.val = k.val; omega
  have hr2 : ∀ k : Fin 64, ((cfg3.win 3).blk t).view.emb (ix2 k q)
      = (ix2 k ((((cfg3.win 5).blk t).view.emb (ix2 p q)) 1) : S64x64.Idx) := by
    intro k; funext a; apply Fin.ext
    match a with
    | ⟨0, _⟩ => show win3_3.index t (0 : Fin 2) * 64 + 1 * k.val = k.val; omega
    | ⟨1, _⟩ => show win3_3.index t (1 : Fin 2) * 64 + 1 * q.val = win3_5.index t (1 : Fin 2) * 64 + 1 * q.val; omega
  have h4 : ((cfg3.win 4).blk t).view.emb (ix2 (0 : Fin 1) q)
      = (ix2 (0 : Fin 1) ((((cfg3.win 5).blk t).view.emb (ix2 p q)) 1) : S1x64.Idx) := by
    funext a; apply Fin.ext
    match a with
    | ⟨0, _⟩ => show win3_4.index t (0 : Fin 2) * 1 + 1 * 0 = 0; omega
    | ⟨1, _⟩ => show win3_4.index t (1 : Fin 2) * 64 + 1 * q.val = win3_5.index t (1 : Fin 2) * 64 + 1 * q.val; omega
  have h2 : ((cfg3.win 2).blk t).view.emb (ix2 p q) = ((cfg3.win 5).blk t).view.emb (ix2 p q) := by
    funext a; apply Fin.ext
    match a with
    | ⟨0, _⟩ => show win3_2.index t (0 : Fin 2) * 5000 + 1 * p.val = win3_5.index t (0 : Fin 2) * 5000 + 1 * p.val; omega
    | ⟨1, _⟩ => show win3_2.index t (1 : Fin 2) * 64 + 1 * q.val = win3_5.index t (1 : Fin 2) * 64 + 1 * q.val; omega
  exact point_eq (V c main_v73) (V c main_arg7) (V c main_v60) (V c main_arg9) (V c main_v74) _ _ _ _ _ _ _
    hl1 hr1 hl2 hr2 h4 h2

/-- An index of the output array is in point t's block iff each coordinate is in the block's range. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v75).slice (win3_5.rect t)).set ↔ _
  rw [View.set_slice_whole, Rect.mem_set_unit]
  exact Iff.rfl

/-- Row r lies in the block of point r / 5000: the twenty blocks cover the array. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_5 _, ?_⟩
  obtain ⟨-, -, -, -, -, -, -, -, -, -, e50, e51⟩ := idx_facts ⟨(i 0).val / 5000, by rw [hN]; omega⟩
  rw [mem_blk]
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 64 ≤ (i 1).val ∧ (i 1).val < win3_5.index _ (1 : Fin 2) * 64 + 64
    rw [e51]; omega

/-- The output array after the launch is the combine of the operand arrays as the launch found them. -/
theorem final (c : Dev nD) :
    (dat3 (F := Ideal) V c).arrAt 5 cfg3.N
      = sageB (V c main_v73) (V c main_arg7) (V c main_v60) (V c main_arg9) (V c main_v74) :=
  (dat3 (F := Ideal) V c).arrAt_eq_of_cover 5 _ (fun t _ => flushed_eq V c t) cover

end Cert.KernelIdeal.Region3

end
-- ==== Proof.Region4.lean ====
/-
  The fifth launch (the linear layer cut at zero) as one function of its three operand arrays.

  The grid has twenty points; point t works on rows 5000·t … 5000·t + 4999.  Its block of the table and of the output
  are those rows, its block of the weight matrix is the whole matrix and its block of the bias row is the whole row.
  So what point t writes back is rows 5000·t … of  max (x·W + b) 0  taken on the whole arrays, and the twenty blocks
  cover the output array.
-/
import proofs.«161296_j1133871366243_1_alg».proof.Proof.Gen.KernelIdeal.Frame
import proofs.«161296_j1133871366243_1_alg».proof.Proof.SpecB
import proofs.«161296_j1133871366243_1_alg».proof.Proof.Pay
import Idealize.ShloMosaic.Lib.Pipeline.Value
import Idealize.ShloMosaic.Lib.ValueIdx

set_option maxRecDepth 16384

noncomputable section

open scoped BigOperators

namespace Cert.KernelIdeal.Region4

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: the table's and the output's row blocks move with the point, the
    weight matrix and the bias row stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

open Cert.KernelIdeal.Pay

/-- The arithmetic of one entry: the products of the table's block along its row and the matrix along its column,
    summed, plus the bias at the entry's feature, cut at zero — each operand read where the output's block says — is
    the linear layer of the whole arrays at the output's index. -/
theorem point_eq (A : FVec Ideal S100000x64 .f32) (W : FVec Ideal S64x64 .f32) (B : FVec Ideal S1x64 .f32)
    (l : Fin 64 → S100000x64.Idx) (r : Fin 64 → S64x64.Idx) (i2 : S1x64.Idx) (i : S100000x64.Idx)
    (hl : ∀ k, l k = ix2 (i 0) k) (hr : ∀ k, r k = ix2 k (i 1)) (h2 : i2 = ix2 (0 : Fin 1) (i 1)) :
    max ((∑ k : Fin 64, A (l k) * W (r k)) + B i2) zeroF = linCutB A W B i := by
  subst h2
  have hs : ∑ k : Fin 64, A (l k) * W (r k) = ∑ k : Fin 64, A (ix2 (i 0) k) * W (ix2 k (i 1)) :=
    Finset.sum_congr rfl fun k _ => by rw [hl k, hr k]; rfl
  show _ = max ((∑ k : Fin 64, A (ix2 (i 0) k) * W (ix2 k (i 1))) + B (ix2 (0 : Fin 1) (i 1))) zeroF
  exact congrArg (fun s => max (s + B (ix2 (0 : Fin 1) (i 1))) zeroF) hs

/-- What point t writes back is block t of the linear layer taken on the whole operand arrays. -/
theorem flushed_eq (c : Dev nD) (t : Fin cfg4.N) :
    (dat4 (F := Ideal) V c).flushed 3 t
      = ((cfg4.win 3).blk t).view.read (Elt Ideal) (linCutB (V c main_v75) (V c main_arg10) (V c main_v76)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (k4_at _ _ _ p q).trans ?_
  obtain ⟨e00, e01, e10, e11, e20, e21, e30, e31⟩ := idx_facts t
  have hp := p.isLt
  have hq := q.isLt
  have hl : ∀ k : Fin 64, ((cfg4.win 0).blk t).view.emb (ix2 p k)
      = (ix2 ((((cfg4.win 3).blk t).view.emb (ix2 p q)) 0) k : S100000x64.Idx) := by
    intro k; funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * k.val = k.val; omega
  have hr : ∀ k : Fin 64, ((cfg4.win 1).blk t).view.emb (ix2 k q)
      = (ix2 k ((((cfg4.win 3).blk t).view.emb (ix2 p q)) 1) : S64x64.Idx) := by
    intro k; funext a; apply Fin.ext
    match a with
    | ⟨0, _⟩ => show win4_1.index t (0 : Fin 2) * 64 + 1 * k.val = k.val; omega
    | ⟨1, _⟩ => show win4_1.index t (1 : Fin 2) * 64 + 1 * q.val = win4_3.index t (1 : Fin 2) * 64 + 1 * q.val; omega
  have h2 : ((cfg4.win 2).blk t).view.emb (ix2 (0 : Fin 1) q)
      = (ix2 (0 : Fin 1) ((((cfg4.win 3).blk t).view.emb (ix2 p q)) 1) : S1x64.Idx) := by
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  exact point_eq (V c main_v75) (V c main_arg10) (V c main_v76) _ _ _ _ hl hr h2

/-- An index of the output array is in point t's block iff each coordinate is in the block's range. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v77).slice (win4_3.rect t)).set ↔ _
  rw [View.set_slice_whole, Rect.mem_set_unit]
  exact Iff.rfl

/-- Row r lies in the block of point r / 5000: the twenty blocks cover the array. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_3 _, ?_⟩
  obtain ⟨-, -, -, -, -, -, e30, e31⟩ := idx_facts ⟨(i 0).val / 5000, by rw [hN]; omega⟩
  rw [mem_blk]
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 64 ≤ (i 1).val ∧ (i 1).val < win4_3.index _ (1 : Fin 2) * 64 + 64
    rw [e31]; omega

/-- The output array after the launch is the linear layer of the operand arrays as the launch found them. -/
theorem final (c : Dev nD) :
    (dat4 (F := Ideal) V c).arrAt 3 cfg4.N = linCutB (V c main_v75) (V c main_arg10) (V c main_v76) :=
  (dat4 (F := Ideal) V c).arrAt_eq_of_cover 3 _ (fun t _ => flushed_eq V c t) cover

end Cert.KernelIdeal.Region4

end
-- ==== Proof.Region5.lean ====
/-
  The sixth launch (a node table times a weight matrix) as one function of its two operand arrays.

  The grid has twenty points; point t works on rows 5000·t … 5000·t + 4999.  Its block of the table and of the output
  are those rows, its block of the weight matrix is the whole matrix.  So what point t writes back is rows 5000·t … of
  the product taken on the whole arrays, and the twenty blocks cover the output array.
-/
import proofs.«161296_j1133871366243_1_alg».proof.Proof.Gen.KernelIdeal.Frame
import proofs.«161296_j1133871366243_1_alg».proof.Proof.SpecB
import proofs.«161296_j1133871366243_1_alg».proof.Proof.Pay
import Idealize.ShloMosaic.Lib.Pipeline.Value
import Idealize.ShloMosaic.Lib.ValueIdx

set_option maxRecDepth 16384

noncomputable section

open scoped BigOperators

namespace Cert.KernelIdeal.Region5

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: the table's and the output's row blocks move with the point, the
    weight matrix stays. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

open Cert.KernelIdeal.Pay

/-- The arithmetic of one entry: summing the products of the table's block along its row and the matrix along its
    column, each read where the output's block says, is the product of the whole arrays at the output's index. -/
theorem point_eq (A : FVec Ideal S100000x64 .f32) (W : FVec Ideal S64x64 .f32)
    (l : Fin 64 → S100000x64.Idx) (r : Fin 64 → S64x64.Idx) (i : S100000x64.Idx)
    (hl : ∀ k, l k = ix2 (i 0) k) (hr : ∀ k, r k = ix2 k (i 1)) :
    ∑ k : Fin 64, A (l k) * W (r k) = mm A W i := by
  show _ = ∑ k : Fin 64, A (ix2 (i 0) k) * W (ix2 k (i 1))
  exact Finset.sum_congr rfl fun k _ => by rw [hl k, hr k]; rfl

/-- What point t writes back is block t of the product taken on the whole operand arrays. -/
theorem flushed_eq (c : Dev nD) (t : Fin cfg5.N) :
    (dat5 (F := Ideal) V c).flushed 2 t
      = ((cfg5.win 2).blk t).view.read (Elt Ideal) (mm (V c main_v77) (V c main_arg12)) := by
  show (cfg5.win 2).cut (grid5.coords t) ((dat5 V c).after 2 t) = _
  rw [after5_2]
  unfold out5_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  refine (k5_at _ _ p q).trans ?_
  obtain ⟨e00, e01, e10, e11, e20, e21⟩ := idx_facts t
  have hp := p.isLt
  have hq := q.isLt
  have hl : ∀ k : Fin 64, ((cfg5.win 0).blk t).view.emb (ix2 p k)
      = (ix2 ((((cfg5.win 2).blk t).view.emb (ix2 p q)) 0) k : S100000x64.Idx) := by
    intro k; funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * k.val = k.val; omega
  have hr : ∀ k : Fin 64, ((cfg5.win 1).blk t).view.emb (ix2 k q)
      = (ix2 k ((((cfg5.win 2).blk t).view.emb (ix2 p q)) 1) : S64x64.Idx) := by
    intro k; funext a; apply Fin.ext
    match a with
    | ⟨0, _⟩ => show win5_1.index t (0 : Fin 2) * 64 + 1 * k.val = k.val; omega
    | ⟨1, _⟩ => show win5_1.index t (1 : Fin 2) * 64 + 1 * q.val = win5_2.index t (1 : Fin 2) * 64 + 1 * q.val; omega
  exact point_eq (V c main_v77) (V c main_arg12) _ _ _ hl hr

/-- An index of the output array is in point t's block iff each coordinate is in the block's range. -/
theorem mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v78).slice (win5_2.rect t)).set ↔ _
  rw [View.set_slice_whole, Rect.mem_set_unit]
  exact Iff.rfl

/-- Row r lies in the block of point r / 5000: the twenty blocks cover the array. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_2 _, ?_⟩
  obtain ⟨-, -, -, -, e20, e21⟩ := idx_facts ⟨(i 0).val / 5000, by rw [hN]; omega⟩
  rw [mem_blk]
  intro a
  match a with
  | ⟨0, _⟩ =>
    show win5_2.index _ (0 : Fin 2) * 5000 ≤ (i 0).val ∧ (i 0).val < win5_2.index _ (0 : Fin 2) * 5000 + 5000
    rw [e20]; show (i 0).val / 5000 * 5000 ≤ (i 0).val ∧ (i 0).val < (i 0).val / 5000 * 5000 + 5000; omega
  | ⟨1, _⟩ =>
    show win5_2.index _ (1 : Fin 2) * 64 ≤ (i 1).val ∧ (i 1).val < win5_2.index _ (1 : Fin 2) * 64 + 64
    rw [e21]; omega

/-- The output array after the launch is the product of the operand arrays as the launch found them. -/
theorem final (c : Dev nD) :
    (dat5 (F := Ideal) V c).arrAt 2 cfg5.N = mm (V c main_v77) (V c main_arg12) :=
  (dat5 (F := Ideal) V c).arrAt_eq_of_cover 2 _ (fun t _ => flushed_eq V c t) cover

end Cert.KernelIdeal.Region5

end
-- ==== Proof.Region6.lean ====
/-
  The seventh launch (the last graph-convolution combine, not cut) as one function of its four operand arrays.

  The grid has twenty points; point t works on rows 5000·t … 5000·t + 4999.  Its blocks of the two tables and of the
  output are those rows, its block of the scale column is those rows of the column, its block of the bias row is the
  whole row.  So what point t writes back is rows 5000·t … of  (agg + xw · s) + b  taken on the whole arrays, and the
  twenty blocks cover the output array.
-/
import proofs.«161296_j1133871366243_1_alg».proof.Proof.Gen.KernelIdeal.Frame
import proofs.«161296_j1133871366243_1_alg».proof.Proof.SpecB
import proofs.«161296_j1133871366243_1_alg».proof.Proof.Pay
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty points: row blocks move with the point, the bias row stays. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

open Cert.KernelIdeal.Pay

/-- The arithmetic of one entry: reading the four blocks where the output's block says is reading the whole arrays
    at the output's index, the column at its row and the row at its feature. -/
theorem point_eq (A X : FVec Ideal S100000x64 .f32) (S : FVec Ideal S100000x1 .f32) (B : FVec Ideal S1x64 .f32)
    (i0 i1 i4 : S100000x64.Idx) (i2 : S100000x1.Idx) (i3 : S1x64.Idx)
    (h0 : i0 = i4) (h1 : i1 = i4) (h2 : i2 = ix2 (i4 0) (0 : Fin 1)) (h3 : i3 = ix2 (0 : Fin 1) (i4 1)) :
    A i0 + X i1 * S i2 + B i3 = gcnB A X S B i4 := by
  subst h0 h1 h2 h3; rfl

/-- What point t writes back is block t of the combine taken on the whole operand arrays. -/
theorem flushed_eq (c : Dev nD) (t : Fin cfg6.N) :
    (dat6 (F := Ideal) V c).flushed 4 t
      = ((cfg6.win 4).blk t).view.read (Elt Ideal) (gcnB (V c main_v91) (V c main_v78) (V c main_v92) (V c main_v93)) := by
  show (cfg6.win 4).cut (grid6.coords t) ((dat6 V c).after 4 t) = _
  rw [after6_4]
  unfold out6_4
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (k6_at _ _ _ _ p q).trans ?_
  obtain ⟨e00, e01, e10, e11, e20, e21, e30, e31, e40, e41⟩ := idx_facts t
  have hp := p.isLt
  have hq := q.isLt
  have h0 : ((cfg6.win 0).blk t).view.emb (ix2 p q) = ((cfg6.win 4).blk t).view.emb (ix2 p q) := by
    funext a; apply Fin.ext
    match a with
    | ⟨0, _⟩ => show win6_0.index t (0 : Fin 2) * 5000 + 1 * p.val = win6_4.index t (0 : Fin 2) * 5000 + 1 * p.val; omega
    | ⟨1, _⟩ => show win6_0.index t (1 : Fin 2) * 64 + 1 * q.val = win6_4.index t (1 : Fin 2) * 64 + 1 * q.val; omega
  have h1 : ((cfg6.win 1).blk t).view.emb (ix2 p q) = ((cfg6.win 4).blk t).view.emb (ix2 p q) := by
    funext a; apply Fin.ext
    match a with
    | ⟨0, _⟩ => show win6_1.index t (0 : Fin 2) * 5000 + 1 * p.val = win6_4.index t (0 : Fin 2) * 5000 + 1 * p.val; omega
    | ⟨1, _⟩ => show win6_1.index t (1 : Fin 2) * 64 + 1 * q.val = win6_4.index t (1 : Fin 2) * 64 + 1 * q.val; omega
  have h2 : ((cfg6.win 2).blk t).view.emb (ix2 p (0 : Fin 1))
      = (ix2 ((((cfg6.win 4).blk t).view.emb (ix2 p q)) 0) (0 : Fin 1) : SC.Idx) := by
    funext a; apply Fin.ext
    match a with
    | ⟨0, _⟩ => show win6_2.index t (0 : Fin 2) * 5000 + 1 * p.val = win6_4.index t (0 : Fin 2) * 5000 + 1 * p.val; omega
    | ⟨1, _⟩ => show win6_2.index t (1 : Fin 2) * 1 + 1 * 0 = 0; omega
  have h3 : ((cfg6.win 3).blk t).view.emb (ix2 (0 : Fin 1) q)
      = (ix2 (0 : Fin 1) ((((cfg6.win 4).blk t).view.emb (ix2 p q)) 1) : SR.Idx) := by
    funext a; apply Fin.ext
    match a with
    | ⟨0, _⟩ => show win6_3.index t (0 : Fin 2) * 1 + 1 * 0 = 0; omega
    | ⟨1, _⟩ => show win6_3.index t (1 : Fin 2) * 64 + 1 * q.val = win6_4.index t (1 : Fin 2) * 64 + 1 * q.val; omega
  exact point_eq (V c main_v91) (V c main_v78) (V c main_v92) (V c main_v93) _ _ _ _ _ h0 h1 h2 h3

/-- An index of the output array is in point t's block iff each coordinate is in the block's range. -/
theorem mem_blk (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v94).slice (win6_4.rect t)).set ↔ _
  rw [View.set_slice_whole, Rect.mem_set_unit]
  exact Iff.rfl

/-- Row r lies in the block of point r / 5000: the twenty blocks cover the array. -/
theorem cover (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  refine ⟨⟨(i 0).val / 5000, by rw [hN]; omega⟩, flush6_4 _, ?_⟩
  obtain ⟨-, -, -, -, -, -, -, -, e40, e41⟩ := idx_facts ⟨(i 0).val / 5000, by rw [hN]; omega⟩
  rw [mem_blk]
  intro a
  match a with
  | ⟨0, _⟩ =>
    show win6_4.index _ (0 : Fin 2) * 5000 ≤ (i 0).val ∧ (i 0).val < win6_4.index _ (0 : Fin 2) * 5000 + 5000
    rw [e40]; show (i 0).val / 5000 * 5000 ≤ (i 0).val ∧ (i 0).val < (i 0).val / 5000 * 5000 + 5000; omega
  | ⟨1, _⟩ =>
    show win6_4.index _ (1 : Fin 2) * 64 ≤ (i 1).val ∧ (i 1).val < win6_4.index _ (1 : Fin 2) * 64 + 64
    rw [e41]; omega

/-- The output array after the launch is the combine of the operand arrays as the launch found them. -/
theorem final (c : Dev nD) :
    (dat6 (F := Ideal) V c).arrAt 4 cfg6.N = gcnB (V c main_v91) (V c main_v78) (V c main_v92) (V c main_v93) :=
  (dat6 (F := Ideal) V c).arrAt_eq_of_cover 4 _ (fun t _ => flushed_eq V c t) cover

end Cert.KernelIdeal.Region6

end
-- ==== Proof.Chain.lean ====
/-
  The idealized kernel's result buffer, followed back through @main to the arguments.

  Between the launches the host computes, from the edge list alone, the sources, the targets, the edge weights, the
  self-loop weights and the mean's divisor (once, before the first launch), and before each combine launch the
  gathered-and-scattered table it needs, the self-loop weights as a column and the bias as a row.  Each boundary of
  @main is a valuation of the buffers; this file names, boundary by boundary, the contents of every buffer a later
  segment reads, as a term of the network (Net.lean): a stretch of host operations by computing its results, a launch
  by its output array as one function of its operand arrays (the Region files), every other buffer unchanged.  The
  last boundary's result buffer is the whole network of the fourteen arguments.
-/
import proofs.«161296_j1133871366243_1_alg».proof.Proof.Gen.KernelIdeal.Frame
import proofs.«161296_j1133871366243_1_alg».proof.Proof.Net
import proofs.«161296_j1133871366243_1_alg».proof.Proof.SpecB
import proofs.«161296_j1133871366243_1_alg».proof.Proof.Region0
import proofs.«161296_j1133871366243_1_alg».proof.Proof.Region1
import proofs.«161296_j1133871366243_1_alg».proof.Proof.Region2
import proofs.«161296_j1133871366243_1_alg».proof.Proof.Region3
import proofs.«161296_j1133871366243_1_alg».proof.Proof.Region4
import proofs.«161296_j1133871366243_1_alg».proof.Proof.Region5
import proofs.«161296_j1133871366243_1_alg».proof.Proof.Region6
import Idealize.ShloMosaic.Lib.StableHlo.Run
import Idealize.ShloMosaic.Lib.Pipeline.Value

set_option maxRecDepth 16384

noncomputable section

namespace Cert.KernelIdeal.Chain

open Idealize.ShloMosaic Idealize.ShloMosaic.TcCoe Idealize.ShloMosaic.StableHlo Idealize.ShloMosaic.ValueIdx
open Cert.KernelIdeal Cert.KernelIdeal.Gen Cert.Spec

/-! ## A vector as a column, a vector as a row -/

/-- The per-node vector reshaped to a one-column array, as the host hands it to a combine launch. -/
def colOf (s : FVec Ideal S100000 .f32) : FVec Ideal S100000x1 .f32 := shapeCast S100000x1 s shapeCasts_S100000_S100000x1
/-- The per-feature vector reshaped to a one-row array. -/
def rowOf (b : FVec Ideal S64 .f32) : FVec Ideal S1x64 .f32 := shapeCast S1x64 b shapeCasts_S64_S1x64

/-- Entry (r, 0) of the column is entry r of the vector: both are at row-major position r. -/
theorem colOf_apply (s : FVec Ideal S100000 .f32) (r : Fin 100000) : colOf s (ix2 r (0 : Fin 1)) = s (ix1 r) :=
  shapeCast_apply s _ _ _ (by rw [Shape.rowMajor_val_one, Shape.rowMajor_val_two]; show r.val = r.val * 1 + 0; omega)
/-- Entry (0, j) of the row is entry j of the vector. -/
theorem rowOf_apply (b : FVec Ideal S64 .f32) (j : Fin 64) : rowOf b (ix2 (0 : Fin 1) j) = b (ix1 j) :=
  shapeCast_apply b _ _ _ (by rw [Shape.rowMajor_val_one, Shape.rowMajor_val_two]; show j.val = 0 * 64 + j.val; omega)

theorem gcnB_of (agg xw : FVec Ideal S100000x64 .f32) (s : FVec Ideal S100000 .f32) (b : FVec Ideal S64 .f32) :
    gcnB agg xw (colOf s) (rowOf b) = gcn agg xw s b := by
  funext i
  have hc : colOf s (ix2 (i 0) (0 : Fin 1)) = s (ix1 (i 0)) := colOf_apply s (i 0)
  have hr : rowOf b (ix2 (0 : Fin 1) (i 1)) = b (ix1 (i 1)) := rowOf_apply b (i 1)
  show (agg i + xw i * colOf s (ix2 (i 0) (0 : Fin 1))) + rowOf b (ix2 (0 : Fin 1) (i 1)) = (agg i + xw i * s (ix1 (i 0))) + b (ix1 (i 1))
  rw [hc, hr]
theorem gcnCutB_of (agg xw : FVec Ideal S100000x64 .f32) (s : FVec Ideal S100000 .f32) (b : FVec Ideal S64 .f32) :
    gcnCutB agg xw (colOf s) (rowOf b) = gcnCut agg xw s b := by
  funext i
  show max (gcnB agg xw (colOf s) (rowOf b) i) zeroF = max (gcn agg xw s b i) zeroF
  rw [gcnB_of]
theorem sageB_of (mean : FVec Ideal S100000x64 .f32) (wl : FVec Ideal S64x64 .f32) (h : FVec Ideal S100000x64 .f32)
    (wr : FVec Ideal S64x64 .f32) (b : FVec Ideal S64 .f32) : sageB mean wl h wr (rowOf b) = sage mean wl h wr b := by
  funext i
  have hr : rowOf b (ix2 (0 : Fin 1) (i 1)) = b (ix1 (i 1)) := rowOf_apply b (i 1)
  show ((mm mean wl i + mm h wr i) + rowOf b (ix2 (0 : Fin 1) (i 1))) + h i = ((mm mean wl i + mm h wr i) + b (ix1 (i 1))) + h i
  rw [hr]
theorem sageCutB_of (mean : FVec Ideal S100000x64 .f32) (wl : FVec Ideal S64x64 .f32) (h : FVec Ideal S100000x64 .f32)
    (wr : FVec Ideal S64x64 .f32) (b : FVec Ideal S64 .f32) : sageCutB mean wl h wr (rowOf b) = sageCut mean wl h wr b := by
  funext i
  show max (sageB mean wl h wr (rowOf b) i) zeroF = max (sage mean wl h wr b i) zeroF
  rw [sageB_of]
theorem linCutB_of (x : FVec Ideal S100000x64 .f32) (w : FVec Ideal S64x64 .f32) (b : FVec Ideal S64 .f32) :
    linCutB x w (rowOf b) = linCut x w b := by
  funext i
  have hr : rowOf b (ix2 (0 : Fin 1) (i 1)) = b (ix1 (i 1)) := rowOf_apply b (i 1)
  show max (mm x w i + rowOf b (ix2 (0 : Fin 1) (i 1))) zeroF = max (mm x w i + b (ix1 (i 1))) zeroF
  rw [hr]

/-! ## The boundaries -/

variable (m : (ℓ : Loc nD τ sig) → Buf (Elt Ideal) ℓ) (ρ : Dev nD → PrngReg) (c : Dev nD)

/-! ### Boundary 1 -/

theorem W1_arg0 : W1 m ρ c (Proc.devRef .tc main_arg0) = m ((c : Thread nD τ).loc main_arg0) := by
  show StableHlo.after hostOps0 (W0 m ρ c) (Proc.devRef .tc main_arg0) = _
  dsimp only [hostOps0]
  after_results_simp <;> rfl

theorem W1_arg10 : W1 m ρ c (Proc.devRef .tc main_arg10) = m ((c : Thread nD τ).loc main_arg10) := by
  show StableHlo.after hostOps0 (W0 m ρ c) (Proc.devRef .tc main_arg10) = _
  dsimp only [hostOps0]
  after_results_simp <;> rfl

theorem W1_arg11 : W1 m ρ c (Proc.devRef .tc main_arg11) = m ((c : Thread nD τ).loc main_arg11) := by
  show StableHlo.after hostOps0 (W0 m ρ c) (Proc.devRef .tc main_arg11) = _
  dsimp only [hostOps0]
  after_results_simp <;> rfl

theorem W1_arg12 : W1 m ρ c (Proc.devRef .tc main_arg12) = m ((c : Thread nD τ).loc main_arg12) := by
  show StableHlo.after hostOps0 (W0 m ρ c) (Proc.devRef .tc main_arg12) = _
  dsimp only [hostOps0]
  after_results_simp <;> rfl

theorem W1_arg13 : W1 m ρ c (Proc.devRef .tc main_arg13) = m ((c : Thread nD τ).loc main_arg13) := by
  show StableHlo.after hostOps0 (W0 m ρ c) (Proc.devRef .tc main_arg13) = _
  dsimp only [hostOps0]
  after_results_simp <;> rfl

theorem W1_arg2 : W1 m ρ c (Proc.devRef .tc main_arg2) = m ((c : Thread nD τ).loc main_arg2) := by
  show StableHlo.after hostOps0 (W0 m ρ c) (Proc.devRef .tc main_arg2) = _
  dsimp only [hostOps0]
  after_results_simp <;> rfl

theorem W1_arg3 : W1 m ρ c (Proc.devRef .tc main_arg3) = m ((c : Thread nD τ).loc main_arg3) := by
  show StableHlo.after hostOps0 (W0 m ρ c) (Proc.devRef .tc main_arg3) = _
  dsimp only [hostOps0]
  after_results_simp <;> rfl

theorem W1_arg4 : W1 m ρ c (Proc.devRef .tc main_arg4) = m ((c : Thread nD τ).loc main_arg4) := by
  show StableHlo.after hostOps0 (W0 m ρ c) (Proc.devRef .tc main_arg4) = _
  dsimp only [hostOps0]
  after_results_simp <;> rfl

theorem W1_arg5 : W1 m ρ c (Proc.devRef .tc main_arg5) = m ((c : Thread nD τ).loc main_arg5) := by
  show StableHlo.after hostOps0 (W0 m ρ c) (Proc.devRef .tc main_arg5) = _
  dsimp only [hostOps0]
  after_results_simp <;> rfl

theorem W1_arg6 : W1 m ρ c (Proc.devRef .tc main_arg6) = m ((c : Thread nD τ).loc main_arg6) := by
  show StableHlo.after hostOps0 (W0 m ρ c) (Proc.devRef .tc main_arg6) = _
  dsimp only [hostOps0]
  after_results_simp <;> rfl

theorem W1_arg7 : W1 m ρ c (Proc.devRef .tc main_arg7) = m ((c : Thread nD τ).loc main_arg7) := by
  show StableHlo.after hostOps0 (W0 m ρ c) (Proc.devRef .tc main_arg7) = _
  dsimp only [hostOps0]
  after_results_simp <;> rfl

theorem W1_arg8 : W1 m ρ c (Proc.devRef .tc main_arg8) = m ((c : Thread nD τ).loc main_arg8) := by
  show StableHlo.after hostOps0 (W0 m ρ c) (Proc.devRef .tc main_arg8) = _
  dsimp only [hostOps0]
  after_results_simp <;> rfl

theorem W1_arg9 : W1 m ρ c (Proc.devRef .tc main_arg9) = m ((c : Thread nD τ).loc main_arg9) := by
  show StableHlo.after hostOps0 (W0 m ρ c) (Proc.devRef .tc main_arg9) = _
  dsimp only [hostOps0]
  after_results_simp <;> rfl

theorem W1_v1 : W1 m ρ c (Proc.devRef .tc main_v1) = Net.srcOf (m ((c : Thread nD τ).loc main_arg1)) := by
  show StableHlo.after hostOps0 (W0 m ρ c) (Proc.devRef .tc main_v1) = _
  dsimp only [hostOps0]
  after_results_simp <;> rfl

theorem W1_v25 : W1 m ρ c (Proc.devRef .tc main_v25) = Net.edgeW (m ((c : Thread nD τ).loc main_arg1)) := by
  show StableHlo.after hostOps0 (W0 m ρ c) (Proc.devRef .tc main_v25) = _
  dsimp only [hostOps0]
  after_results_simp <;> rfl

theorem W1_v26 : W1 m ρ c (Proc.devRef .tc main_v26) = Net.selfW (m ((c : Thread nD τ).loc main_arg1)) := by
  show StableHlo.after hostOps0 (W0 m ρ c) (Proc.devRef .tc main_v26) = _
  dsimp only [hostOps0]
  after_results_simp <;> rfl

theorem W1_v28 : W1 m ρ c (Proc.devRef .tc main_v28) = Net.degM (m ((c : Thread nD τ).loc main_arg1)) := by
  show StableHlo.after hostOps0 (W0 m ρ c) (Proc.devRef .tc main_v28) = _
  dsimp only [hostOps0]
  after_results_simp <;> rfl

theorem W1_v3 : W1 m ρ c (Proc.devRef .tc main_v3) = Net.dstOf (m ((c : Thread nD τ).loc main_arg1)) := by
  show StableHlo.after hostOps0 (W0 m ρ c) (Proc.devRef .tc main_v3) = _
  dsimp only [hostOps0]
  after_results_simp <;> rfl

/-! ### Boundary 2 -/

theorem W2_arg10 : W2 m ρ c (Proc.devRef .tc main_arg10) = m ((c : Thread nD τ).loc main_arg10) :=
  (W2_of_ne m ρ c main_arg10 (by decide)).trans (W1_arg10 m ρ c)

theorem W2_arg11 : W2 m ρ c (Proc.devRef .tc main_arg11) = m ((c : Thread nD τ).loc main_arg11) :=
  (W2_of_ne m ρ c main_arg11 (by decide)).trans (W1_arg11 m ρ c)

theorem W2_arg12 : W2 m ρ c (Proc.devRef .tc main_arg12) = m ((c : Thread nD τ).loc main_arg12) :=
  (W2_of_ne m ρ c main_arg12 (by decide)).trans (W1_arg12 m ρ c)

theorem W2_arg13 : W2 m ρ c (Proc.devRef .tc main_arg13) = m ((c : Thread nD τ).loc main_arg13) :=
  (W2_of_ne m ρ c main_arg13 (by decide)).trans (W1_arg13 m ρ c)

theorem W2_arg3 : W2 m ρ c (Proc.devRef .tc main_arg3) = m ((c : Thread nD τ).loc main_arg3) :=
  (W2_of_ne m ρ c main_arg3 (by decide)).trans (W1_arg3 m ρ c)

theorem W2_arg4 : W2 m ρ c (Proc.devRef .tc main_arg4) = m ((c : Thread nD τ).loc main_arg4) :=
  (W2_of_ne m ρ c main_arg4 (by decide)).trans (W1_arg4 m ρ c)

theorem W2_arg5 : W2 m ρ c (Proc.devRef .tc main_arg5) = m ((c : Thread nD τ).loc main_arg5) :=
  (W2_of_ne m ρ c main_arg5 (by decide)).trans (W1_arg5 m ρ c)

theorem W2_arg6 : W2 m ρ c (Proc.devRef .tc main_arg6) = m ((c : Thread nD τ).loc main_arg6) :=
  (W2_of_ne m ρ c main_arg6 (by decide)).trans (W1_arg6 m ρ c)

theorem W2_arg7 : W2 m ρ c (Proc.devRef .tc main_arg7) = m ((c : Thread nD τ).loc main_arg7) :=
  (W2_of_ne m ρ c main_arg7 (by decide)).trans (W1_arg7 m ρ c)

theorem W2_arg8 : W2 m ρ c (Proc.devRef .tc main_arg8) = m ((c : Thread nD τ).loc main_arg8) :=
  (W2_of_ne m ρ c main_arg8 (by decide)).trans (W1_arg8 m ρ c)

theorem W2_arg9 : W2 m ρ c (Proc.devRef .tc main_arg9) = m ((c : Thread nD τ).loc main_arg9) :=
  (W2_of_ne m ρ c main_arg9 (by decide)).trans (W1_arg9 m ρ c)

theorem W2_v1 : W2 m ρ c (Proc.devRef .tc main_v1) = Net.srcOf (m ((c : Thread nD τ).loc main_arg1)) :=
  (W2_of_ne m ρ c main_v1 (by decide)).trans (W1_v1 m ρ c)

theorem W2_v25 : W2 m ρ c (Proc.devRef .tc main_v25) = Net.edgeW (m ((c : Thread nD τ).loc main_arg1)) :=
  (W2_of_ne m ρ c main_v25 (by decide)).trans (W1_v25 m ρ c)

theorem W2_v26 : W2 m ρ c (Proc.devRef .tc main_v26) = Net.selfW (m ((c : Thread nD τ).loc main_arg1)) :=
  (W2_of_ne m ρ c main_v26 (by decide)).trans (W1_v26 m ρ c)

theorem W2_v28 : W2 m ρ c (Proc.devRef .tc main_v28) = Net.degM (m ((c : Thread nD τ).loc main_arg1)) :=
  (W2_of_ne m ρ c main_v28 (by decide)).trans (W1_v28 m ρ c)

theorem W2_v29 : W2 m ρ c (Proc.devRef .tc main_v29) = (Spec.mm (m ((c : Thread nD τ).loc main_arg0)) (m ((c : Thread nD τ).loc main_arg2))) := by
  refine (W2_arr m ρ c 2).trans ((Region0.final (V1 m ρ) c).trans ?_)
  show Spec.mm (W1 m ρ c (Proc.devRef .tc main_arg0)) (W1 m ρ c (Proc.devRef .tc main_arg2)) = _
  rw [W1_arg0, W1_arg2]

theorem W2_v3 : W2 m ρ c (Proc.devRef .tc main_v3) = Net.dstOf (m ((c : Thread nD τ).loc main_arg1)) :=
  (W2_of_ne m ρ c main_v3 (by decide)).trans (W1_v3 m ρ c)

/-! ### Boundary 3 -/

theorem W3_arg10 : W3 m ρ c (Proc.devRef .tc main_arg10) = m ((c : Thread nD τ).loc main_arg10) := by
  show StableHlo.after hostOps1 (W2 m ρ c) (Proc.devRef .tc main_arg10) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg11 : W3 m ρ c (Proc.devRef .tc main_arg11) = m ((c : Thread nD τ).loc main_arg11) := by
  show StableHlo.after hostOps1 (W2 m ρ c) (Proc.devRef .tc main_arg11) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg12 : W3 m ρ c (Proc.devRef .tc main_arg12) = m ((c : Thread nD τ).loc main_arg12) := by
  show StableHlo.after hostOps1 (W2 m ρ c) (Proc.devRef .tc main_arg12) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg13 : W3 m ρ c (Proc.devRef .tc main_arg13) = m ((c : Thread nD τ).loc main_arg13) := by
  show StableHlo.after hostOps1 (W2 m ρ c) (Proc.devRef .tc main_arg13) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg4 : W3 m ρ c (Proc.devRef .tc main_arg4) = m ((c : Thread nD τ).loc main_arg4) := by
  show StableHlo.after hostOps1 (W2 m ρ c) (Proc.devRef .tc main_arg4) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg5 : W3 m ρ c (Proc.devRef .tc main_arg5) = m ((c : Thread nD τ).loc main_arg5) := by
  show StableHlo.after hostOps1 (W2 m ρ c) (Proc.devRef .tc main_arg5) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg6 : W3 m ρ c (Proc.devRef .tc main_arg6) = m ((c : Thread nD τ).loc main_arg6) := by
  show StableHlo.after hostOps1 (W2 m ρ c) (Proc.devRef .tc main_arg6) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg7 : W3 m ρ c (Proc.devRef .tc main_arg7) = m ((c : Thread nD τ).loc main_arg7) := by
  show StableHlo.after hostOps1 (W2 m ρ c) (Proc.devRef .tc main_arg7) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg8 : W3 m ρ c (Proc.devRef .tc main_arg8) = m ((c : Thread nD τ).loc main_arg8) := by
  show StableHlo.after hostOps1 (W2 m ρ c) (Proc.devRef .tc main_arg8) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_arg9 : W3 m ρ c (Proc.devRef .tc main_arg9) = m ((c : Thread nD τ).loc main_arg9) := by
  show StableHlo.after hostOps1 (W2 m ρ c) (Proc.devRef .tc main_arg9) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v1 : W3 m ρ c (Proc.devRef .tc main_v1) = Net.srcOf (m ((c : Thread nD τ).loc main_arg1)) := by
  show StableHlo.after hostOps1 (W2 m ρ c) (Proc.devRef .tc main_v1) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v25 : W3 m ρ c (Proc.devRef .tc main_v25) = Net.edgeW (m ((c : Thread nD τ).loc main_arg1)) := by
  show StableHlo.after hostOps1 (W2 m ρ c) (Proc.devRef .tc main_v25) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v26 : W3 m ρ c (Proc.devRef .tc main_v26) = Net.selfW (m ((c : Thread nD τ).loc main_arg1)) := by
  show StableHlo.after hostOps1 (W2 m ρ c) (Proc.devRef .tc main_v26) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v28 : W3 m ρ c (Proc.devRef .tc main_v28) = Net.degM (m ((c : Thread nD τ).loc main_arg1)) := by
  show StableHlo.after hostOps1 (W2 m ρ c) (Proc.devRef .tc main_v28) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v29 : W3 m ρ c (Proc.devRef .tc main_v29) = (Spec.mm (m ((c : Thread nD τ).loc main_arg0)) (m ((c : Thread nD τ).loc main_arg2))) := by
  show StableHlo.after hostOps1 (W2 m ρ c) (Proc.devRef .tc main_v29) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v3 : W3 m ρ c (Proc.devRef .tc main_v3) = Net.dstOf (m ((c : Thread nD τ).loc main_arg1)) := by
  show StableHlo.after hostOps1 (W2 m ρ c) (Proc.devRef .tc main_v3) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v42 : W3 m ρ c (Proc.devRef .tc main_v42) = Net.aggW (m ((c : Thread nD τ).loc main_arg1)) (Spec.mm (m ((c : Thread nD τ).loc main_arg0)) (m ((c : Thread nD τ).loc main_arg2))) := by
  show StableHlo.after hostOps1 (W2 m ρ c) (Proc.devRef .tc main_v42) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v43 : W3 m ρ c (Proc.devRef .tc main_v43) = colOf (Net.selfW (m ((c : Thread nD τ).loc main_arg1))) := by
  show StableHlo.after hostOps1 (W2 m ρ c) (Proc.devRef .tc main_v43) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

theorem W3_v44 : W3 m ρ c (Proc.devRef .tc main_v44) = rowOf (m ((c : Thread nD τ).loc main_arg3)) := by
  show StableHlo.after hostOps1 (W2 m ρ c) (Proc.devRef .tc main_v44) = _
  dsimp only [hostOps1]
  after_results_simp <;> (simp only [W2_v1 m ρ c, W2_v29 m ρ c, W2_v25 m ρ c, W2_v3 m ρ c, W2_v26 m ρ c, W2_arg3 m ρ c, W2_v28 m ρ c, W2_arg5 m ρ c, W2_arg4 m ρ c, W2_arg6 m ρ c, W2_arg8 m ρ c, W2_arg7 m ρ c, W2_arg9 m ρ c, W2_arg10 m ρ c, W2_arg11 m ρ c, W2_arg12 m ρ c, W2_arg13 m ρ c] <;> rfl)

/-! ### Boundary 4 -/

theorem W4_arg10 : W4 m ρ c (Proc.devRef .tc main_arg10) = m ((c : Thread nD τ).loc main_arg10) :=
  (W4_of_ne m ρ c main_arg10 (by decide)).trans (W3_arg10 m ρ c)

theorem W4_arg11 : W4 m ρ c (Proc.devRef .tc main_arg11) = m ((c : Thread nD τ).loc main_arg11) :=
  (W4_of_ne m ρ c main_arg11 (by decide)).trans (W3_arg11 m ρ c)

theorem W4_arg12 : W4 m ρ c (Proc.devRef .tc main_arg12) = m ((c : Thread nD τ).loc main_arg12) :=
  (W4_of_ne m ρ c main_arg12 (by decide)).trans (W3_arg12 m ρ c)

theorem W4_arg13 : W4 m ρ c (Proc.devRef .tc main_arg13) = m ((c : Thread nD τ).loc main_arg13) :=
  (W4_of_ne m ρ c main_arg13 (by decide)).trans (W3_arg13 m ρ c)

theorem W4_arg4 : W4 m ρ c (Proc.devRef .tc main_arg4) = m ((c : Thread nD τ).loc main_arg4) :=
  (W4_of_ne m ρ c main_arg4 (by decide)).trans (W3_arg4 m ρ c)

theorem W4_arg5 : W4 m ρ c (Proc.devRef .tc main_arg5) = m ((c : Thread nD τ).loc main_arg5) :=
  (W4_of_ne m ρ c main_arg5 (by decide)).trans (W3_arg5 m ρ c)

theorem W4_arg6 : W4 m ρ c (Proc.devRef .tc main_arg6) = m ((c : Thread nD τ).loc main_arg6) :=
  (W4_of_ne m ρ c main_arg6 (by decide)).trans (W3_arg6 m ρ c)

theorem W4_arg7 : W4 m ρ c (Proc.devRef .tc main_arg7) = m ((c : Thread nD τ).loc main_arg7) :=
  (W4_of_ne m ρ c main_arg7 (by decide)).trans (W3_arg7 m ρ c)

theorem W4_arg8 : W4 m ρ c (Proc.devRef .tc main_arg8) = m ((c : Thread nD τ).loc main_arg8) :=
  (W4_of_ne m ρ c main_arg8 (by decide)).trans (W3_arg8 m ρ c)

theorem W4_arg9 : W4 m ρ c (Proc.devRef .tc main_arg9) = m ((c : Thread nD τ).loc main_arg9) :=
  (W4_of_ne m ρ c main_arg9 (by decide)).trans (W3_arg9 m ρ c)

theorem W4_v1 : W4 m ρ c (Proc.devRef .tc main_v1) = Net.srcOf (m ((c : Thread nD τ).loc main_arg1)) :=
  (W4_of_ne m ρ c main_v1 (by decide)).trans (W3_v1 m ρ c)

theorem W4_v25 : W4 m ρ c (Proc.devRef .tc main_v25) = Net.edgeW (m ((c : Thread nD τ).loc main_arg1)) :=
  (W4_of_ne m ρ c main_v25 (by decide)).trans (W3_v25 m ρ c)

theorem W4_v26 : W4 m ρ c (Proc.devRef .tc main_v26) = Net.selfW (m ((c : Thread nD τ).loc main_arg1)) :=
  (W4_of_ne m ρ c main_v26 (by decide)).trans (W3_v26 m ρ c)

theorem W4_v28 : W4 m ρ c (Proc.devRef .tc main_v28) = Net.degM (m ((c : Thread nD τ).loc main_arg1)) :=
  (W4_of_ne m ρ c main_v28 (by decide)).trans (W3_v28 m ρ c)

theorem W4_v3 : W4 m ρ c (Proc.devRef .tc main_v3) = Net.dstOf (m ((c : Thread nD τ).loc main_arg1)) :=
  (W4_of_ne m ρ c main_v3 (by decide)).trans (W3_v3 m ρ c)

theorem W4_v45 : W4 m ρ c (Proc.devRef .tc main_v45) = (Net.h1 (m ((c : Thread nD τ).loc main_arg0)) (m ((c : Thread nD τ).loc main_arg1)) (m ((c : Thread nD τ).loc main_arg2)) (m ((c : Thread nD τ).loc main_arg3))) := by
  refine (W4_arr m ρ c 4).trans ((Region1.final (V3 m ρ) c).trans ?_)
  show Spec.gcnCutB (W3 m ρ c (Proc.devRef .tc main_v42)) (W3 m ρ c (Proc.devRef .tc main_v29)) (W3 m ρ c (Proc.devRef .tc main_v43)) (W3 m ρ c (Proc.devRef .tc main_v44)) = _
  rw [W3_v42, W3_v29, W3_v43, W3_v44]
  exact gcnCutB_of ..

/-! ### Boundary 5 -/

theorem W5_arg10 : W5 m ρ c (Proc.devRef .tc main_arg10) = m ((c : Thread nD τ).loc main_arg10) := by
  show StableHlo.after hostOps2 (W4 m ρ c) (Proc.devRef .tc main_arg10) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg11 : W5 m ρ c (Proc.devRef .tc main_arg11) = m ((c : Thread nD τ).loc main_arg11) := by
  show StableHlo.after hostOps2 (W4 m ρ c) (Proc.devRef .tc main_arg11) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg12 : W5 m ρ c (Proc.devRef .tc main_arg12) = m ((c : Thread nD τ).loc main_arg12) := by
  show StableHlo.after hostOps2 (W4 m ρ c) (Proc.devRef .tc main_arg12) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg13 : W5 m ρ c (Proc.devRef .tc main_arg13) = m ((c : Thread nD τ).loc main_arg13) := by
  show StableHlo.after hostOps2 (W4 m ρ c) (Proc.devRef .tc main_arg13) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg4 : W5 m ρ c (Proc.devRef .tc main_arg4) = m ((c : Thread nD τ).loc main_arg4) := by
  show StableHlo.after hostOps2 (W4 m ρ c) (Proc.devRef .tc main_arg4) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg6 : W5 m ρ c (Proc.devRef .tc main_arg6) = m ((c : Thread nD τ).loc main_arg6) := by
  show StableHlo.after hostOps2 (W4 m ρ c) (Proc.devRef .tc main_arg6) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg7 : W5 m ρ c (Proc.devRef .tc main_arg7) = m ((c : Thread nD τ).loc main_arg7) := by
  show StableHlo.after hostOps2 (W4 m ρ c) (Proc.devRef .tc main_arg7) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg8 : W5 m ρ c (Proc.devRef .tc main_arg8) = m ((c : Thread nD τ).loc main_arg8) := by
  show StableHlo.after hostOps2 (W4 m ρ c) (Proc.devRef .tc main_arg8) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_arg9 : W5 m ρ c (Proc.devRef .tc main_arg9) = m ((c : Thread nD τ).loc main_arg9) := by
  show StableHlo.after hostOps2 (W4 m ρ c) (Proc.devRef .tc main_arg9) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v1 : W5 m ρ c (Proc.devRef .tc main_v1) = Net.srcOf (m ((c : Thread nD τ).loc main_arg1)) := by
  show StableHlo.after hostOps2 (W4 m ρ c) (Proc.devRef .tc main_v1) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v25 : W5 m ρ c (Proc.devRef .tc main_v25) = Net.edgeW (m ((c : Thread nD τ).loc main_arg1)) := by
  show StableHlo.after hostOps2 (W4 m ρ c) (Proc.devRef .tc main_v25) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v26 : W5 m ρ c (Proc.devRef .tc main_v26) = Net.selfW (m ((c : Thread nD τ).loc main_arg1)) := by
  show StableHlo.after hostOps2 (W4 m ρ c) (Proc.devRef .tc main_v26) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v28 : W5 m ρ c (Proc.devRef .tc main_v28) = Net.degM (m ((c : Thread nD τ).loc main_arg1)) := by
  show StableHlo.after hostOps2 (W4 m ρ c) (Proc.devRef .tc main_v28) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v3 : W5 m ρ c (Proc.devRef .tc main_v3) = Net.dstOf (m ((c : Thread nD τ).loc main_arg1)) := by
  show StableHlo.after hostOps2 (W4 m ρ c) (Proc.devRef .tc main_v3) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v45 : W5 m ρ c (Proc.devRef .tc main_v45) = (Net.h1 (m ((c : Thread nD τ).loc main_arg0)) (m ((c : Thread nD τ).loc main_arg1)) (m ((c : Thread nD τ).loc main_arg2)) (m ((c : Thread nD τ).loc main_arg3))) := by
  show StableHlo.after hostOps2 (W4 m ρ c) (Proc.devRef .tc main_v45) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v58 : W5 m ρ c (Proc.devRef .tc main_v58) = Net.meanOf (m ((c : Thread nD τ).loc main_arg1)) (Net.h1 (m ((c : Thread nD τ).loc main_arg0)) (m ((c : Thread nD τ).loc main_arg1)) (m ((c : Thread nD τ).loc main_arg2)) (m ((c : Thread nD τ).loc main_arg3))) := by
  show StableHlo.after hostOps2 (W4 m ρ c) (Proc.devRef .tc main_v58) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

theorem W5_v59 : W5 m ρ c (Proc.devRef .tc main_v59) = rowOf (m ((c : Thread nD τ).loc main_arg5)) := by
  show StableHlo.after hostOps2 (W4 m ρ c) (Proc.devRef .tc main_v59) = _
  dsimp only [hostOps2]
  after_results_simp <;> (simp only [W4_v1 m ρ c, W4_v45 m ρ c, W4_v3 m ρ c, W4_v28 m ρ c, W4_arg5 m ρ c, W4_arg4 m ρ c, W4_arg6 m ρ c, W4_arg8 m ρ c, W4_arg7 m ρ c, W4_arg9 m ρ c, W4_arg10 m ρ c, W4_arg11 m ρ c, W4_arg12 m ρ c, W4_v25 m ρ c, W4_v26 m ρ c, W4_arg13 m ρ c] <;> rfl)

/-! ### Boundary 6 -/

theorem W6_arg10 : W6 m ρ c (Proc.devRef .tc main_arg10) = m ((c : Thread nD τ).loc main_arg10) :=
  (W6_of_ne m ρ c main_arg10 (by decide)).trans (W5_arg10 m ρ c)

theorem W6_arg11 : W6 m ρ c (Proc.devRef .tc main_arg11) = m ((c : Thread nD τ).loc main_arg11) :=
  (W6_of_ne m ρ c main_arg11 (by decide)).trans (W5_arg11 m ρ c)

theorem W6_arg12 : W6 m ρ c (Proc.devRef .tc main_arg12) = m ((c : Thread nD τ).loc main_arg12) :=
  (W6_of_ne m ρ c main_arg12 (by decide)).trans (W5_arg12 m ρ c)

theorem W6_arg13 : W6 m ρ c (Proc.devRef .tc main_arg13) = m ((c : Thread nD τ).loc main_arg13) :=
  (W6_of_ne m ρ c main_arg13 (by decide)).trans (W5_arg13 m ρ c)

theorem W6_arg7 : W6 m ρ c (Proc.devRef .tc main_arg7) = m ((c : Thread nD τ).loc main_arg7) :=
  (W6_of_ne m ρ c main_arg7 (by decide)).trans (W5_arg7 m ρ c)

theorem W6_arg8 : W6 m ρ c (Proc.devRef .tc main_arg8) = m ((c : Thread nD τ).loc main_arg8) :=
  (W6_of_ne m ρ c main_arg8 (by decide)).trans (W5_arg8 m ρ c)

theorem W6_arg9 : W6 m ρ c (Proc.devRef .tc main_arg9) = m ((c : Thread nD τ).loc main_arg9) :=
  (W6_of_ne m ρ c main_arg9 (by decide)).trans (W5_arg9 m ρ c)

theorem W6_v1 : W6 m ρ c (Proc.devRef .tc main_v1) = Net.srcOf (m ((c : Thread nD τ).loc main_arg1)) :=
  (W6_of_ne m ρ c main_v1 (by decide)).trans (W5_v1 m ρ c)

theorem W6_v25 : W6 m ρ c (Proc.devRef .tc main_v25) = Net.edgeW (m ((c : Thread nD τ).loc main_arg1)) :=
  (W6_of_ne m ρ c main_v25 (by decide)).trans (W5_v25 m ρ c)

theorem W6_v26 : W6 m ρ c (Proc.devRef .tc main_v26) = Net.selfW (m ((c : Thread nD τ).loc main_arg1)) :=
  (W6_of_ne m ρ c main_v26 (by decide)).trans (W5_v26 m ρ c)

theorem W6_v28 : W6 m ρ c (Proc.devRef .tc main_v28) = Net.degM (m ((c : Thread nD τ).loc main_arg1)) :=
  (W6_of_ne m ρ c main_v28 (by decide)).trans (W5_v28 m ρ c)

theorem W6_v3 : W6 m ρ c (Proc.devRef .tc main_v3) = Net.dstOf (m ((c : Thread nD τ).loc main_arg1)) :=
  (W6_of_ne m ρ c main_v3 (by decide)).trans (W5_v3 m ρ c)

theorem W6_v60 : W6 m ρ c (Proc.devRef .tc main_v60) = (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) := by
  refine (W6_arr m ρ c 5).trans ((Region2.final (V5 m ρ) c).trans ?_)
  show Spec.sageCutB (W5 m ρ c (Proc.devRef .tc main_v58)) (W5 m ρ c (Proc.devRef .tc main_arg4)) (W5 m ρ c (Proc.devRef .tc main_v45)) (W5 m ρ c (Proc.devRef .tc main_arg6)) (W5 m ρ c (Proc.devRef .tc main_v59)) = _
  rw [W5_v58, W5_arg4, W5_v45, W5_arg6, W5_v59]
  exact sageCutB_of ..

/-! ### Boundary 7 -/

theorem W7_arg10 : W7 m ρ c (Proc.devRef .tc main_arg10) = m ((c : Thread nD τ).loc main_arg10) := by
  show StableHlo.after hostOps3 (W6 m ρ c) (Proc.devRef .tc main_arg10) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_arg11 : W7 m ρ c (Proc.devRef .tc main_arg11) = m ((c : Thread nD τ).loc main_arg11) := by
  show StableHlo.after hostOps3 (W6 m ρ c) (Proc.devRef .tc main_arg11) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_arg12 : W7 m ρ c (Proc.devRef .tc main_arg12) = m ((c : Thread nD τ).loc main_arg12) := by
  show StableHlo.after hostOps3 (W6 m ρ c) (Proc.devRef .tc main_arg12) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_arg13 : W7 m ρ c (Proc.devRef .tc main_arg13) = m ((c : Thread nD τ).loc main_arg13) := by
  show StableHlo.after hostOps3 (W6 m ρ c) (Proc.devRef .tc main_arg13) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_arg7 : W7 m ρ c (Proc.devRef .tc main_arg7) = m ((c : Thread nD τ).loc main_arg7) := by
  show StableHlo.after hostOps3 (W6 m ρ c) (Proc.devRef .tc main_arg7) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_arg9 : W7 m ρ c (Proc.devRef .tc main_arg9) = m ((c : Thread nD τ).loc main_arg9) := by
  show StableHlo.after hostOps3 (W6 m ρ c) (Proc.devRef .tc main_arg9) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_v1 : W7 m ρ c (Proc.devRef .tc main_v1) = Net.srcOf (m ((c : Thread nD τ).loc main_arg1)) := by
  show StableHlo.after hostOps3 (W6 m ρ c) (Proc.devRef .tc main_v1) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_v25 : W7 m ρ c (Proc.devRef .tc main_v25) = Net.edgeW (m ((c : Thread nD τ).loc main_arg1)) := by
  show StableHlo.after hostOps3 (W6 m ρ c) (Proc.devRef .tc main_v25) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_v26 : W7 m ρ c (Proc.devRef .tc main_v26) = Net.selfW (m ((c : Thread nD τ).loc main_arg1)) := by
  show StableHlo.after hostOps3 (W6 m ρ c) (Proc.devRef .tc main_v26) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_v3 : W7 m ρ c (Proc.devRef .tc main_v3) = Net.dstOf (m ((c : Thread nD τ).loc main_arg1)) := by
  show StableHlo.after hostOps3 (W6 m ρ c) (Proc.devRef .tc main_v3) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_v60 : W7 m ρ c (Proc.devRef .tc main_v60) = (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) := by
  show StableHlo.after hostOps3 (W6 m ρ c) (Proc.devRef .tc main_v60) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_v73 : W7 m ρ c (Proc.devRef .tc main_v73) = Net.meanOf (m ((c : Thread nD τ).loc main_arg1)) (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) := by
  show StableHlo.after hostOps3 (W6 m ρ c) (Proc.devRef .tc main_v73) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

theorem W7_v74 : W7 m ρ c (Proc.devRef .tc main_v74) = rowOf (m ((c : Thread nD τ).loc main_arg8)) := by
  show StableHlo.after hostOps3 (W6 m ρ c) (Proc.devRef .tc main_v74) = _
  dsimp only [hostOps3]
  after_results_simp <;> (simp only [W6_v1 m ρ c, W6_v60 m ρ c, W6_v3 m ρ c, W6_v28 m ρ c, W6_arg8 m ρ c, W6_arg7 m ρ c, W6_arg9 m ρ c, W6_arg10 m ρ c, W6_arg11 m ρ c, W6_arg12 m ρ c, W6_v25 m ρ c, W6_v26 m ρ c, W6_arg13 m ρ c] <;> rfl)

/-! ### Boundary 8 -/

theorem W8_arg10 : W8 m ρ c (Proc.devRef .tc main_arg10) = m ((c : Thread nD τ).loc main_arg10) :=
  (W8_of_ne m ρ c main_arg10 (by decide)).trans (W7_arg10 m ρ c)

theorem W8_arg11 : W8 m ρ c (Proc.devRef .tc main_arg11) = m ((c : Thread nD τ).loc main_arg11) :=
  (W8_of_ne m ρ c main_arg11 (by decide)).trans (W7_arg11 m ρ c)

theorem W8_arg12 : W8 m ρ c (Proc.devRef .tc main_arg12) = m ((c : Thread nD τ).loc main_arg12) :=
  (W8_of_ne m ρ c main_arg12 (by decide)).trans (W7_arg12 m ρ c)

theorem W8_arg13 : W8 m ρ c (Proc.devRef .tc main_arg13) = m ((c : Thread nD τ).loc main_arg13) :=
  (W8_of_ne m ρ c main_arg13 (by decide)).trans (W7_arg13 m ρ c)

theorem W8_v1 : W8 m ρ c (Proc.devRef .tc main_v1) = Net.srcOf (m ((c : Thread nD τ).loc main_arg1)) :=
  (W8_of_ne m ρ c main_v1 (by decide)).trans (W7_v1 m ρ c)

theorem W8_v25 : W8 m ρ c (Proc.devRef .tc main_v25) = Net.edgeW (m ((c : Thread nD τ).loc main_arg1)) :=
  (W8_of_ne m ρ c main_v25 (by decide)).trans (W7_v25 m ρ c)

theorem W8_v26 : W8 m ρ c (Proc.devRef .tc main_v26) = Net.selfW (m ((c : Thread nD τ).loc main_arg1)) :=
  (W8_of_ne m ρ c main_v26 (by decide)).trans (W7_v26 m ρ c)

theorem W8_v3 : W8 m ρ c (Proc.devRef .tc main_v3) = Net.dstOf (m ((c : Thread nD τ).loc main_arg1)) :=
  (W8_of_ne m ρ c main_v3 (by decide)).trans (W7_v3 m ρ c)

theorem W8_v75 : W8 m ρ c (Proc.devRef .tc main_v75) = (Net.sageOf (m ((c : Thread nD τ).loc main_arg1)) (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) := by
  refine (W8_arr m ρ c 5).trans ((Region3.final (V7 m ρ) c).trans ?_)
  show Spec.sageB (W7 m ρ c (Proc.devRef .tc main_v73)) (W7 m ρ c (Proc.devRef .tc main_arg7)) (W7 m ρ c (Proc.devRef .tc main_v60)) (W7 m ρ c (Proc.devRef .tc main_arg9)) (W7 m ρ c (Proc.devRef .tc main_v74)) = _
  rw [W7_v73, W7_arg7, W7_v60, W7_arg9, W7_v74]
  exact sageB_of ..

/-! ### Boundary 9 -/

theorem W9_arg10 : W9 m ρ c (Proc.devRef .tc main_arg10) = m ((c : Thread nD τ).loc main_arg10) := by
  show StableHlo.after hostOps4 (W8 m ρ c) (Proc.devRef .tc main_arg10) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_arg12 : W9 m ρ c (Proc.devRef .tc main_arg12) = m ((c : Thread nD τ).loc main_arg12) := by
  show StableHlo.after hostOps4 (W8 m ρ c) (Proc.devRef .tc main_arg12) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_arg13 : W9 m ρ c (Proc.devRef .tc main_arg13) = m ((c : Thread nD τ).loc main_arg13) := by
  show StableHlo.after hostOps4 (W8 m ρ c) (Proc.devRef .tc main_arg13) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_v1 : W9 m ρ c (Proc.devRef .tc main_v1) = Net.srcOf (m ((c : Thread nD τ).loc main_arg1)) := by
  show StableHlo.after hostOps4 (W8 m ρ c) (Proc.devRef .tc main_v1) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_v25 : W9 m ρ c (Proc.devRef .tc main_v25) = Net.edgeW (m ((c : Thread nD τ).loc main_arg1)) := by
  show StableHlo.after hostOps4 (W8 m ρ c) (Proc.devRef .tc main_v25) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_v26 : W9 m ρ c (Proc.devRef .tc main_v26) = Net.selfW (m ((c : Thread nD τ).loc main_arg1)) := by
  show StableHlo.after hostOps4 (W8 m ρ c) (Proc.devRef .tc main_v26) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_v3 : W9 m ρ c (Proc.devRef .tc main_v3) = Net.dstOf (m ((c : Thread nD τ).loc main_arg1)) := by
  show StableHlo.after hostOps4 (W8 m ρ c) (Proc.devRef .tc main_v3) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_v75 : W9 m ρ c (Proc.devRef .tc main_v75) = (Net.sageOf (m ((c : Thread nD τ).loc main_arg1)) (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) := by
  show StableHlo.after hostOps4 (W8 m ρ c) (Proc.devRef .tc main_v75) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

theorem W9_v76 : W9 m ρ c (Proc.devRef .tc main_v76) = rowOf (m ((c : Thread nD τ).loc main_arg11)) := by
  show StableHlo.after hostOps4 (W8 m ρ c) (Proc.devRef .tc main_v76) = _
  dsimp only [hostOps4]
  after_results_simp <;> (simp only [W8_v1 m ρ c, W8_v75 m ρ c, W8_arg10 m ρ c, W8_arg11 m ρ c, W8_arg12 m ρ c, W8_v25 m ρ c, W8_v3 m ρ c, W8_v26 m ρ c, W8_arg13 m ρ c] <;> rfl)

/-! ### Boundary 10 -/

theorem W10_arg12 : W10 m ρ c (Proc.devRef .tc main_arg12) = m ((c : Thread nD τ).loc main_arg12) :=
  (W10_of_ne m ρ c main_arg12 (by decide)).trans (W9_arg12 m ρ c)

theorem W10_arg13 : W10 m ρ c (Proc.devRef .tc main_arg13) = m ((c : Thread nD τ).loc main_arg13) :=
  (W10_of_ne m ρ c main_arg13 (by decide)).trans (W9_arg13 m ρ c)

theorem W10_v1 : W10 m ρ c (Proc.devRef .tc main_v1) = Net.srcOf (m ((c : Thread nD τ).loc main_arg1)) :=
  (W10_of_ne m ρ c main_v1 (by decide)).trans (W9_v1 m ρ c)

theorem W10_v25 : W10 m ρ c (Proc.devRef .tc main_v25) = Net.edgeW (m ((c : Thread nD τ).loc main_arg1)) :=
  (W10_of_ne m ρ c main_v25 (by decide)).trans (W9_v25 m ρ c)

theorem W10_v26 : W10 m ρ c (Proc.devRef .tc main_v26) = Net.selfW (m ((c : Thread nD τ).loc main_arg1)) :=
  (W10_of_ne m ρ c main_v26 (by decide)).trans (W9_v26 m ρ c)

theorem W10_v3 : W10 m ρ c (Proc.devRef .tc main_v3) = Net.dstOf (m ((c : Thread nD τ).loc main_arg1)) :=
  (W10_of_ne m ρ c main_v3 (by decide)).trans (W9_v3 m ρ c)

theorem W10_v77 : W10 m ρ c (Proc.devRef .tc main_v77) = (Spec.linCut (Net.sageOf (m ((c : Thread nD τ).loc main_arg1)) (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) (m ((c : Thread nD τ).loc main_arg10)) (m ((c : Thread nD τ).loc main_arg11))) := by
  refine (W10_arr m ρ c 3).trans ((Region4.final (V9 m ρ) c).trans ?_)
  show Spec.linCutB (W9 m ρ c (Proc.devRef .tc main_v75)) (W9 m ρ c (Proc.devRef .tc main_arg10)) (W9 m ρ c (Proc.devRef .tc main_v76)) = _
  rw [W9_v75, W9_arg10, W9_v76]
  exact linCutB_of ..

/-! ### Boundary 11 -/

theorem W11_arg13 : W11 m ρ c (Proc.devRef .tc main_arg13) = m ((c : Thread nD τ).loc main_arg13) :=
  (W11_of_ne m ρ c main_arg13 (by decide)).trans (W10_arg13 m ρ c)

theorem W11_v1 : W11 m ρ c (Proc.devRef .tc main_v1) = Net.srcOf (m ((c : Thread nD τ).loc main_arg1)) :=
  (W11_of_ne m ρ c main_v1 (by decide)).trans (W10_v1 m ρ c)

theorem W11_v25 : W11 m ρ c (Proc.devRef .tc main_v25) = Net.edgeW (m ((c : Thread nD τ).loc main_arg1)) :=
  (W11_of_ne m ρ c main_v25 (by decide)).trans (W10_v25 m ρ c)

theorem W11_v26 : W11 m ρ c (Proc.devRef .tc main_v26) = Net.selfW (m ((c : Thread nD τ).loc main_arg1)) :=
  (W11_of_ne m ρ c main_v26 (by decide)).trans (W10_v26 m ρ c)

theorem W11_v3 : W11 m ρ c (Proc.devRef .tc main_v3) = Net.dstOf (m ((c : Thread nD τ).loc main_arg1)) :=
  (W11_of_ne m ρ c main_v3 (by decide)).trans (W10_v3 m ρ c)

theorem W11_v78 : W11 m ρ c (Proc.devRef .tc main_v78) = (Spec.mm (Spec.linCut (Net.sageOf (m ((c : Thread nD τ).loc main_arg1)) (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg12))) := by
  refine (W11_arr m ρ c 2).trans ((Region5.final (V10 m ρ) c).trans ?_)
  show Spec.mm (W10 m ρ c (Proc.devRef .tc main_v77)) (W10 m ρ c (Proc.devRef .tc main_arg12)) = _
  rw [W10_v77, W10_arg12]

/-! ### Boundary 12 -/

theorem W12_v78 : W12 m ρ c (Proc.devRef .tc main_v78) = (Spec.mm (Spec.linCut (Net.sageOf (m ((c : Thread nD τ).loc main_arg1)) (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg12))) := by
  show StableHlo.after hostOps6 (W11 m ρ c) (Proc.devRef .tc main_v78) = _
  dsimp only [hostOps6]
  after_results_simp <;> (simp only [W11_v1 m ρ c, W11_v78 m ρ c, W11_v25 m ρ c, W11_v3 m ρ c, W11_v26 m ρ c, W11_arg13 m ρ c] <;> rfl)

theorem W12_v91 : W12 m ρ c (Proc.devRef .tc main_v91) = Net.aggW (m ((c : Thread nD τ).loc main_arg1)) (Spec.mm (Spec.linCut (Net.sageOf (m ((c : Thread nD τ).loc main_arg1)) (Net.sageCutOf (m ((c : Thread nD τ).loc main_arg1)) (Net.h1 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg12))) := by
  show StableHlo.after hostOps6 (W11 m ρ c) (Proc.devRef .tc main_v91) = _
  dsimp only [hostOps6]
  after_results_simp <;> (simp only [W11_v1 m ρ c, W11_v78 m ρ c, W11_v25 m ρ c, W11_v3 m ρ c, W11_v26 m ρ c, W11_arg13 m ρ c] <;> rfl)

theorem W12_v92 : W12 m ρ c (Proc.devRef .tc main_v92) = colOf (Net.selfW (m ((c : Thread nD τ).loc main_arg1))) := by
  show StableHlo.after hostOps6 (W11 m ρ c) (Proc.devRef .tc main_v92) = _
  dsimp only [hostOps6]
  after_results_simp <;> (simp only [W11_v1 m ρ c, W11_v78 m ρ c, W11_v25 m ρ c, W11_v3 m ρ c, W11_v26 m ρ c, W11_arg13 m ρ c] <;> rfl)

theorem W12_v93 : W12 m ρ c (Proc.devRef .tc main_v93) = rowOf (m ((c : Thread nD τ).loc main_arg13)) := by
  show StableHlo.after hostOps6 (W11 m ρ c) (Proc.devRef .tc main_v93) = _
  dsimp only [hostOps6]
  after_results_simp <;> (simp only [W11_v1 m ρ c, W11_v78 m ρ c, W11_v25 m ρ c, W11_v3 m ρ c, W11_v26 m ρ c, W11_arg13 m ρ c] <;> rfl)

/-! ### Boundary 13 -/

theorem W13_v94 : W13 m ρ c (Proc.devRef .tc main_v94) = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W13_arr m ρ c 4).trans ((Region6.final (V12 m ρ) c).trans ?_)
  show Spec.gcnB (W12 m ρ c (Proc.devRef .tc main_v91)) (W12 m ρ c (Proc.devRef .tc main_v78)) (W12 m ρ c (Proc.devRef .tc main_v92)) (W12 m ρ c (Proc.devRef .tc main_v93)) = _
  rw [W12_v91, W12_v78, W12_v92, W12_v93]
  exact gcnB_of ..

end Cert.KernelIdeal.Chain

end
-- ==== Proof.RefNet.lean ====
/-
  The reference program's result is the network function.

  The reference is five layers: a graph convolution cut at zero, a neighbourhood-mean layer with its residual cut at
  zero, a second one left uncut, a linear layer cut at zero, and a last graph convolution.  Its text recomputes the
  in-degrees, the normalisation and the edge weights inside every layer; as terms of the edge list these are the same
  each time, and the same as the network's, so every stage that depends on the graph alone is matched by unfolding
  names.  Three things are mathematics.  A product of a node table with a weight matrix is the sum over the inner
  index.  A layer's pointwise combine, read at an index (r, j), takes its per-node scale at r and its bias at j,
  because the two nested broadcasts that spread a vector over the table read it at that one coordinate.  And the
  neighbourhood-mean layer adds its four terms in another order than the network does, which is the same number
  because addition on the extended reals is commutative and associative.
-/
import proofs.«161296_j1133871366243_1_alg».proof.Proof.Gen.ReferenceIdeal.Read
import proofs.«161296_j1133871366243_1_alg».proof.Proof.Net

noncomputable section

namespace Cert.RefNet

open Idealize.ShloMosaic Idealize.ShloMosaic.ValueIdx Idealize.ShloMosaic.TcCoe Idealize.SL.Sem Cert.ReferenceIdeal Cert.ReferenceIdeal.Gen Cert.Spec

/-! ## A table times a matrix -/

/-- The host's contraction of a node table's feature axis with a weight matrix's row axis is the sum over the inner
    index: entry (r, j) is the sum over k of x(r, k) · w(k, j). -/
theorem dot_eq_mm (x : FVec Ideal S100000x64 .f32) (w : FVec Ideal S64x64 .f32) :
    Host.dotGeneral (F := Ideal) dot_S100000x64_S64x64_S100000x64_1_0_0_1_n_n none x w = Spec.mm x w := by
  funext i
  refine (Read.val_main_v4_apply x w i).trans ?_
  show _ = ∑ k : Fin 64, x (ix2 (i 0) k) * w (ix2 k (i 1))
  refine Finset.sum_congr rfl fun k _ => ?_
  have el : Read.lidx_main_v4 i k = ix2 (i 0) k :=
    funext fun a => Fin.ext (by match a with | ⟨0, _⟩ => rfl | ⟨1, _⟩ => rfl)
  have er : Read.ridx_main_v4 i k = ix2 k (i 1) :=
    funext fun a => Fin.ext (by match a with | ⟨0, _⟩ => rfl | ⟨1, _⟩ => rfl)
  rw [el, er]
  rfl

/-! ## Vectors spread over the table, read at an index -/

/-- One number per node, spread along each node's row: at (r, j) it is the number of node r. -/
theorem perNode_apply (s : FVec Ideal S100000 .f32) (i : S100000x64.Idx) :
    broadcastInDim S100000x64 ![0, 1] bcast_S100000x1_S100000x64_0_1
      (broadcastInDim S100000x1 ![0] bcast_S100000_S100000x1_0 s) i = s (ix1 (i 0)) := by
  refine (broadcastInDim_apply _ bcast_S100000x1_S100000x64_0_1 _ i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 s _ (ix1 (i 0)) (fun a => match a with
    | ⟨0, _⟩ => by show (i 0).val = if (100000 : Nat) = 1 then 0 else (i 0).val; rw [if_neg (by decide)])

/-- One number per feature, spread down each column: at (r, j) it is the number of feature j. -/
theorem perFeature_apply (b : FVec Ideal S64 .f32) (i : S100000x64.Idx) :
    broadcastInDim S100000x64 ![0, 1] bcast_S1x64_S100000x64_0_1
      (broadcastInDim S1x64 ![1] bcast_S64_S1x64_1 b) i = b (ix1 (i 1)) := by
  refine (broadcastInDim_apply _ bcast_S1x64_S100000x64_0_1 _ i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 b _ (ix1 (i 1)) (fun a => match a with
    | ⟨0, _⟩ => by show (i 1).val = if (64 : Nat) = 1 then 0 else (i 1).val; rw [if_neg (by decide)])

/-- The table every cut compares with holds the zero word at every index. -/
theorem zeros_apply (i : S100000x64.Idx) :
    broadcastInDim S100000x64 ![] bcast_S_S100000x64 (constant (F := Ideal) S_ .f32 0x00000000#32) i = Spec.zeroF :=
  broadcastInDim_apply _ bcast_S_S100000x64 _ i ix0 (fun a => a.elim0)

/-! ## The layers' pointwise combines -/

/-- The graph-convolution combine: neighbour sum, plus the projected table scaled per node, plus the bias per
    feature. -/
theorem gcn_combine (agg xw : FVec Ideal S100000x64 .f32) (s : FVec Ideal S100000 .f32) (b : FVec Ideal S64 .f32) :
    addf (addf agg (mulf xw (broadcastInDim S100000x64 ![0, 1] bcast_S100000x1_S100000x64_0_1 (broadcastInDim S100000x1 ![0] bcast_S100000_S100000x1_0 s)))) (broadcastInDim S100000x64 ![0, 1] bcast_S1x64_S100000x64_0_1 (broadcastInDim S1x64 ![1] bcast_S64_S1x64_1 b)) = Spec.gcn agg xw s b := by
  funext i
  rw [addf_apply, addf_apply, mulf_apply, perNode_apply, perFeature_apply]
  rfl

/-- The same followed by the cut at zero. -/
theorem gcnCut_combine (agg xw : FVec Ideal S100000x64 .f32) (s : FVec Ideal S100000 .f32) (b : FVec Ideal S64 .f32) :
    maximumf (addf (addf agg (mulf xw (broadcastInDim S100000x64 ![0, 1] bcast_S100000x1_S100000x64_0_1 (broadcastInDim S100000x1 ![0] bcast_S100000_S100000x1_0 s)))) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))
      = Spec.gcnCut agg xw s b := by
  funext i
  rw [maximumf_apply, zeros_apply, gcn_combine]
  rfl

/-- The neighbourhood-mean combine.  The reference adds (mean·Wl + b) + h·Wr + h; the network adds
    (mean·Wl + h·Wr) + b + h: the two middle terms change places. -/
theorem sage_combine (mean : FVec Ideal S100000x64 .f32) (wl : FVec Ideal S64x64 .f32) (h : FVec Ideal S100000x64 .f32)
    (wr : FVec Ideal S64x64 .f32) (b : FVec Ideal S64 .f32) :
    addf (addf (addf (Host.dotGeneral (F := Ideal) dot_S100000x64_S64x64_S100000x64_1_0_0_1_n_n none mean wl) (broadcastInDim S100000x64 ![0, 1] bcast_S1x64_S100000x64_0_1 (broadcastInDim S1x64 ![1] bcast_S64_S1x64_1 b))) (Host.dotGeneral (F := Ideal) dot_S100000x64_S64x64_S100000x64_1_0_0_1_n_n none h wr)) h = Spec.sage mean wl h wr b := by
  funext i
  rw [addf_apply, addf_apply, addf_apply, perFeature_apply, dot_eq_mm, dot_eq_mm]
  exact Spec.sage_regroup _ _ _ _

/-- The same followed by the cut at zero. -/
theorem sageCut_combine (mean : FVec Ideal S100000x64 .f32) (wl : FVec Ideal S64x64 .f32) (h : FVec Ideal S100000x64 .f32)
    (wr : FVec Ideal S64x64 .f32) (b : FVec Ideal S64 .f32) :
    maximumf (addf (addf (addf (Host.dotGeneral (F := Ideal) dot_S100000x64_S64x64_S100000x64_1_0_0_1_n_n none mean wl) (broadcastInDim S100000x64 ![0, 1] bcast_S1x64_S100000x64_0_1 (broadcastInDim S1x64 ![1] bcast_S64_S1x64_1 b))) (Host.dotGeneral (F := Ideal) dot_S100000x64_S64x64_S100000x64_1_0_0_1_n_n none h wr)) h) (broadcastInDim S100000x64 ![] bcast_S_S100000x64 (constant (F := Ideal) S_ .f32 0x00000000#32))
      = Spec.sageCut mean wl h wr b := by
  funext i
  rw [maximumf_apply, zeros_apply, sage_combine]
  rfl

/-- The linear layer cut at zero. -/
theorem linCut_combine (x : FVec Ideal S100000x64 .f32) (w : FVec Ideal S64x64 .f32) (b : FVec Ideal S64 .f32) :
    maximumf (addf (Host.dotGeneral (F := Ideal) dot_S100000x64_S64x64_S100000x64_1_0_0_1_n_n none x w) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32)) = Spec.linCut x w b := by
  funext i
  rw [maximumf_apply, zeros_apply, addf_apply, perFeature_apply, dot_eq_mm]
  rfl

/-! ## The stages that depend on the graph alone

Each of these is the network's term for the same quantity, name for name: the reference spells the in-degree, the
normalisation, the wrapped indices and the edge weights afresh in every layer, always by the same operations on the
edge list, and gathers and scatters the layer's table by the host's own operations, as the network does. -/

/-- Layer 0's weighted neighbour sum is the network's, of the projected table. -/
theorem aggW_first (x0 : FVec Ideal S100000x64 .f32) (x1 : IVec S2x1250000 32) (x2 : FVec Ideal S64x64 .f32) :
    Read.val_main_v39 (F := Ideal) x0 x1 x2 = Net.aggW x1 (Host.dotGeneral (F := Ideal) dot_S100000x64_S64x64_S100000x64_1_0_0_1_n_n none x0 x2) := rfl
/-- Layer 0's self-loop weights. -/
theorem selfW_first (x1 : IVec S2x1250000 32) : Read.val_main_v40 (F := Ideal) x1 = Net.selfW x1 := rfl
/-- Layer 1's neighbourhood mean is the network's, of layer 0's output. -/
theorem mean_first (x0 : FVec Ideal S100000x64 .f32) (x1 : IVec S2x1250000 32) (x2 : FVec Ideal S64x64 .f32) (x3 : FVec Ideal S64 .f32) :
    Read.val_main_v67 (F := Ideal) x0 x1 x2 x3 = Net.meanOf x1 (Read.val_main_v48 (F := Ideal) x0 x1 x2 x3) := rfl
/-- Layer 2's neighbourhood mean is the network's, of layer 1's output. -/
theorem mean_second (x0 : FVec Ideal S100000x64 .f32) (x1 : IVec S2x1250000 32) (x2 : FVec Ideal S64x64 .f32) (x3 : FVec Ideal S64 .f32) (x4 : FVec Ideal S64x64 .f32) (x5 : FVec Ideal S64 .f32) (x6 : FVec Ideal S64x64 .f32) :
    Read.val_main_v94 (F := Ideal) x0 x1 x2 x3 x4 x5 x6 = Net.meanOf x1 (Read.val_main_v75 (F := Ideal) x0 x1 x2 x3 x4 x5 x6) := rfl
/-- The last layer's weighted neighbour sum is the network's, of the projected table. -/
theorem aggW_last (x0 : FVec Ideal S100000x64 .f32) (x1 : IVec S2x1250000 32) (x2 : FVec Ideal S64x64 .f32) (x3 : FVec Ideal S64 .f32) (x4 : FVec Ideal S64x64 .f32) (x5 : FVec Ideal S64 .f32) (x6 : FVec Ideal S64x64 .f32) (x7 : FVec Ideal S64x64 .f32) (x8 : FVec Ideal S64 .f32) (x9 : FVec Ideal S64x64 .f32) (x10 : FVec Ideal S64x64 .f32) (x11 : FVec Ideal S64 .f32) (x12 : FVec Ideal S64x64 .f32) :
    Read.val_main_v142 (F := Ideal) x0 x1 x2 x3 x4 x5 x6 x7 x8 x9 x10 x11 x12 = Net.aggW x1 (Read.val_main_v107 (F := Ideal) x0 x1 x2 x3 x4 x5 x6 x7 x8 x9 x10 x11 x12) := rfl
/-- The last layer's self-loop weights. -/
theorem selfW_last (x1 : IVec S2x1250000 32) : Read.val_main_v143 (F := Ideal) x1 = Net.selfW x1 := rfl

/-! ## Layer by layer -/

/-- Layer 0: the graph convolution of the input, cut at zero. -/
theorem layer0 (x0 : FVec Ideal S100000x64 .f32) (x1 : IVec S2x1250000 32) (x2 : FVec Ideal S64x64 .f32) (x3 : FVec Ideal S64 .f32) :
    Read.val_main_v48 (F := Ideal) x0 x1 x2 x3 = Net.h1 x0 x1 x2 x3 := by
  unfold Read.val_main_v48 Read.val_main_v47 Read.val_main_v44 Read.val_main_v43 Read.val_main_v46 Read.val_main_v45 Read.val_main_v42 Read.val_main_v41 Read.val_main_call0_v0 Read.val_main_call0_cst Read.val_main_v4
  rw [gcnCut_combine, aggW_first, selfW_first, dot_eq_mm]
  rfl

/-- Layer 1: the neighbourhood-mean layer with its residual, cut at zero. -/
theorem layer1 (x0 : FVec Ideal S100000x64 .f32) (x1 : IVec S2x1250000 32) (x2 : FVec Ideal S64x64 .f32) (x3 : FVec Ideal S64 .f32) (x4 : FVec Ideal S64x64 .f32) (x5 : FVec Ideal S64 .f32) (x6 : FVec Ideal S64x64 .f32) :
    Read.val_main_v75 (F := Ideal) x0 x1 x2 x3 x4 x5 x6 = Net.sageCutOf x1 (Net.h1 x0 x1 x2 x3) x4 x5 x6 := by
  unfold Read.val_main_v75 Read.val_main_v74 Read.val_main_v73 Read.val_main_v72 Read.val_main_v71 Read.val_main_v70 Read.val_main_v69 Read.val_main_v68 Read.val_main_call1_v0 Read.val_main_call1_cst
  rw [sageCut_combine, mean_first, layer0]
  rfl

/-- Layer 2 before the linear layer: the neighbourhood-mean layer with its residual, uncut. -/
theorem layer2 (x0 : FVec Ideal S100000x64 .f32) (x1 : IVec S2x1250000 32) (x2 : FVec Ideal S64x64 .f32) (x3 : FVec Ideal S64 .f32) (x4 : FVec Ideal S64x64 .f32) (x5 : FVec Ideal S64 .f32) (x6 : FVec Ideal S64x64 .f32) (x7 : FVec Ideal S64x64 .f32) (x8 : FVec Ideal S64 .f32) (x9 : FVec Ideal S64x64 .f32) :
    Read.val_main_v101 (F := Ideal) x0 x1 x2 x3 x4 x5 x6 x7 x8 x9 = Net.sageOf x1 (Net.sageCutOf x1 (Net.h1 x0 x1 x2 x3) x4 x5 x6) x7 x8 x9 := by
  unfold Read.val_main_v101 Read.val_main_v100 Read.val_main_v99 Read.val_main_v98 Read.val_main_v97 Read.val_main_v96 Read.val_main_v95
  rw [sage_combine, mean_second, layer1]
  rfl

/-- The linear layer, cut at zero. -/
theorem layerLin (x0 : FVec Ideal S100000x64 .f32) (x1 : IVec S2x1250000 32) (x2 : FVec Ideal S64x64 .f32) (x3 : FVec Ideal S64 .f32) (x4 : FVec Ideal S64x64 .f32) (x5 : FVec Ideal S64 .f32) (x6 : FVec Ideal S64x64 .f32) (x7 : FVec Ideal S64x64 .f32) (x8 : FVec Ideal S64 .f32) (x9 : FVec Ideal S64x64 .f32) (x10 : FVec Ideal S64x64 .f32) (x11 : FVec Ideal S64 .f32) :
    Read.val_main_v106 (F := Ideal) x0 x1 x2 x3 x4 x5 x6 x7 x8 x9 x10 x11 = Spec.linCut (Net.sageOf x1 (Net.sageCutOf x1 (Net.h1 x0 x1 x2 x3) x4 x5 x6) x7 x8 x9) x10 x11 := by
  unfold Read.val_main_v106 Read.val_main_v105 Read.val_main_v104 Read.val_main_v103 Read.val_main_v102 Read.val_main_call2_v0 Read.val_main_call2_cst
  rw [linCut_combine, layer2]

/-- The last layer's projected table. -/
theorem projLast (x0 : FVec Ideal S100000x64 .f32) (x1 : IVec S2x1250000 32) (x2 : FVec Ideal S64x64 .f32) (x3 : FVec Ideal S64 .f32) (x4 : FVec Ideal S64x64 .f32) (x5 : FVec Ideal S64 .f32) (x6 : FVec Ideal S64x64 .f32) (x7 : FVec Ideal S64x64 .f32) (x8 : FVec Ideal S64 .f32) (x9 : FVec Ideal S64x64 .f32) (x10 : FVec Ideal S64x64 .f32) (x11 : FVec Ideal S64 .f32) (x12 : FVec Ideal S64x64 .f32) :
    Read.val_main_v107 (F := Ideal) x0 x1 x2 x3 x4 x5 x6 x7 x8 x9 x10 x11 x12 = Spec.mm (Spec.linCut (Net.sageOf x1 (Net.sageCutOf x1 (Net.h1 x0 x1 x2 x3) x4 x5 x6) x7 x8 x9) x10 x11) x12 := by
  unfold Read.val_main_v107
  rw [dot_eq_mm, layerLin]

/-- The last layer: the graph convolution, uncut, which is the whole network. -/
theorem layerOut (x0 : FVec Ideal S100000x64 .f32) (x1 : IVec S2x1250000 32) (x2 : FVec Ideal S64x64 .f32) (x3 : FVec Ideal S64 .f32) (x4 : FVec Ideal S64x64 .f32) (x5 : FVec Ideal S64 .f32) (x6 : FVec Ideal S64x64 .f32) (x7 : FVec Ideal S64x64 .f32) (x8 : FVec Ideal S64 .f32) (x9 : FVec Ideal S64x64 .f32) (x10 : FVec Ideal S64x64 .f32) (x11 : FVec Ideal S64 .f32) (x12 : FVec Ideal S64x64 .f32) (x13 : FVec Ideal S64 .f32) :
    Read.val_main_v150 (F := Ideal) x0 x1 x2 x3 x4 x5 x6 x7 x8 x9 x10 x11 x12 x13 = Net.out x0 x1 x2 x3 x4 x5 x6 x7 x8 x9 x10 x11 x12 x13 := by
  unfold Read.val_main_v150 Read.val_main_v149 Read.val_main_v148 Read.val_main_v147 Read.val_main_v146 Read.val_main_v145 Read.val_main_v144
  rw [gcn_combine, aggW_last, selfW_last, projLast]
  rfl

/-! ## The run's result -/

/-- The term the reference's run ends with is the network function of the fourteen arguments' launch contents. -/
theorem ref_is_net (m : (ℓ : Loc nD τ sig) → Buf (Elt Ideal) ℓ) (c : Dev nD) :
    Cert.ReferenceIdeal.Value.res_main_v150 (F := Ideal) m c
      = Net.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13)) :=
  (Read.val_main_v150_eq m c).trans (layerOut _ _ _ _ _ _ _ _ _ _ _ _ _ _)

end Cert.RefNet

end
-- ==== Proof.lean ====
/-
  A four-layer graph network on 100000 nodes with 64 features — graph convolution, two neighbourhood-mean layers
  with residuals, a linear layer, graph convolution — computed two ways.  The reference is plain array code.  The kernel
  keeps the gathers and scatters over the 1250000 edges on the host and runs every dense stage (the five table-times-
  matrix products and the combines around them) as a launch over twenty row blocks of 5000 nodes.

  On the extended reals both are one function of the fourteen arguments (Net.lean).  For the kernel: its run ends
  with the result buffer at the last boundary's contents (KernelRun.lean); each launch's output array is its dense
  stage taken on the whole operand arrays, because a row block of the output depends only on the same rows of the
  tables, the matching rows of the scale column and the whole weight matrices and bias row, and the twenty blocks
  cover the array (Region0 … Region6 over the entry-by-entry arithmetic of Pay.lean); the host stretches between the
  launches are the network's own gathers and scatters (Chain.lean).  For the reference: every product of a table with a
  matrix is the same sum over the 64 inner features, the broadcasts of the self-loop weights and of the biases read the
  same entries as the kernel's column and row, and the one regrouping — the reference adds the bias before the second
  product, the kernel after it — is commutativity and associativity of addition, which hold on the extended reals
  with infinite terms too, so no finiteness of the inputs is used (RefNet.lean).  The kernel's idealization rewrote
  nothing, so there is nothing to preserve beyond the text itself.
-/
import proofs.«161296_j1133871366243_1_alg».proof.Defs
import proofs.«161296_j1133871366243_1_alg».proof.Proof.Gen.Kernel
import proofs.«161296_j1133871366243_1_alg».proof.Proof.Gen.Kernel.Skeleton
import proofs.«161296_j1133871366243_1_alg».proof.Proof.Gen.Kernel.Launch
import proofs.«161296_j1133871366243_1_alg».proof.Proof.Gen.Kernel.Points
import proofs.«161296_j1133871366243_1_alg».proof.Proof.Gen.Kernel.Frame
import proofs.«161296_j1133871366243_1_alg».proof.Proof.Gen.KernelIdeal
import proofs.«161296_j1133871366243_1_alg».proof.Proof.Gen.KernelIdeal.Skeleton
import proofs.«161296_j1133871366243_1_alg».proof.Proof.Gen.KernelIdeal.Launch
import proofs.«161296_j1133871366243_1_alg».proof.Proof.Gen.KernelIdeal.Points
import proofs.«161296_j1133871366243_1_alg».proof.Proof.Gen.KernelIdeal.Frame
import proofs.«161296_j1133871366243_1_alg».proof.Proof.Gen.ReferenceIdeal
import proofs.«161296_j1133871366243_1_alg».proof.Proof.Gen.Pre_finite_inputs
import proofs.«161296_j1133871366243_1_alg».proof.Proof.Gen.ReferenceIdeal.Run
import proofs.«161296_j1133871366243_1_alg».proof.Proof.Gen.ReferenceIdeal.Read
import proofs.«161296_j1133871366243_1_alg».proof.Proof.KernelRun
import proofs.«161296_j1133871366243_1_alg».proof.Proof.Chain
import proofs.«161296_j1133871366243_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network function of the (agreeing) arguments in their result buffers. -/
theorem algebraic : Cert.algebraic_KernelIdeal_ReferenceIdeal := by
  intro m ρ m' ρ' _ hagree
  refine ⟨fun c => Cert.Net.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.W13_v94 m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.RefNet.ref_is_net]
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
